-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  main_v88

def fn_part4 {F : FTy → Type} [FloatOps F] (main_arg15 : FVec F S128 .f32) (main_arg16 : FVec F S64x128 .f32) (main_arg17 : FVec F S64 .f32) (main_arg18 : FVec F S64x128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64x128 .f32 := Host.absf main_arg16
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x128 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S64x128 .f32) (main_arg17 : FVec F S64 .f32) (main_arg18 : FVec F S64x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S64x128 .f32) (main_arg17 : FVec F S64 .f32) (main_arg18 : FVec F S64x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S64x128 .f32) (main_arg17 : FVec F S64 .f32) (main_arg18 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S64x128 .f32) (main_arg17 : FVec F S64 .f32) (main_arg18 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S2000x128 : Shape := ⟨2, ![2000, 128]⟩
abbrev S1x128 : Shape := ⟨2, ![1, 128]⟩
abbrev S100000x64 : Shape := ⟨2, ![100000, 64]⟩
abbrev S2000x64 : Shape := ⟨2, ![2000, 64]⟩
abbrev S128x64 : Shape := ⟨2, ![128, 64]⟩
abbrev S1x64 : Shape := ⟨2, ![1, 64]⟩

abbrev nBuf : Space → Nat
  | .hbm => 81
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S64x128, .f32⟩
  | .hbm, ⟨17, _⟩ => ⟨S64, .f32⟩
  | .hbm, ⟨18, _⟩ => ⟨S64x128, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S64x128, .f32⟩
  | .local _ .vmem, ⟨31, _⟩ => ⟨S64x128, .f32⟩
  | .local _ .vmem, ⟨32, _⟩ => ⟨S64, .f32⟩
  | .local _ .vmem, ⟨33, _⟩ => ⟨S2000x64, .f32⟩
  | .local _ .vmem, ⟨34, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_7 : Ref sig .tc := ⟨.hbm, 65, rfl⟩
abbrev main_v37 : Ref sig .tc := ⟨.hbm, 66, rfl⟩
abbrev main_v38 : Ref sig .tc := ⟨.hbm, 67, rfl⟩
abbrev main_c_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S100000x128.size a
  hwx1_9 : ∀ i : grid1.Coords, EltTy.bits .f32 = 32 ∨ (Rect.block (s := S100000x128) S2000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S2000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S64x128, .f32⟩
  | 17 => ⟨S64, .f32⟩
  | 18 => ⟨S64x128, .f32⟩
  | 19 => ⟨S1x1600000, .i32⟩
  | 20 => ⟨S1600000, .i32⟩
  | 21 => ⟨S1x1600000, .i32⟩
  | 22 => ⟨S1600000, .i32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S_, .f32⟩
  | 37 => ⟨S1600000, .f32⟩
  | 38 => ⟨S_, .f32⟩
  | 39 => ⟨S100000, .f32⟩
  | 40 => ⟨S1600000x1, .i32⟩
  | 41 => ⟨S100000, .f32⟩
  | 42 => ⟨S_, .f32⟩
  | 43 => ⟨S100000, .f32⟩
  | 44 => ⟨S100000, .f32⟩
  | 45 => ⟨S100000x1, .f32⟩
  | 46 => ⟨S100000x128, .f32⟩
  | 47 => ⟨S100000x128, .f32⟩
  | 48 => ⟨S128x128, .f32⟩
  | 49 => ⟨S100000x128, .f32⟩
  | 50 => ⟨S1x128, .f32⟩
  | 51 => ⟨S100000x128, .f32⟩
  | 52 => ⟨S100000x128, .f32⟩
  | 53 => ⟨S128x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S_, .f32⟩
  | 60 => ⟨S128, .f32⟩
  | 61 => ⟨S128, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S_, .f32⟩
  | 83 => ⟨S100000x128, .f32⟩
  | 84 => ⟨S1600000x1, .i32⟩
  | 85 => ⟨S100000x128, .f32⟩
  | 86 => ⟨S_, .f32⟩
  | 87 => ⟨S1600000, .f32⟩
  | 88 => ⟨S_, .f32⟩
  | 89 => ⟨S100000, .f32⟩
  | 90 => ⟨S1600000x1, .i32⟩
  | 91 => ⟨S100000, .f32⟩
  | 92 => ⟨S_, .f32⟩
  | 93 => ⟨S100000, .f32⟩
  | 94 => ⟨S100000, .f32⟩
  | 95 => ⟨S100000x1, .f32⟩
  | 96 => ⟨S100000x128, .f32⟩
  | 97 => ⟨S100000x128, .f32⟩
  | 98 => ⟨S128x128, .f32⟩
  | 99 => ⟨S100000x128, .f32⟩
  | 100 => ⟨S1x128, .f32⟩
  | 101 => ⟨S100000x128, .f32⟩
  | 102 => ⟨S100000x128, .f32⟩
  | 103 => ⟨S128x128, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S_, .f32⟩
  | 110 => ⟨S128, .f32⟩
  | 111 => ⟨S128, .f32⟩
  | 112 => ⟨S128, .f32⟩
  | 113 => ⟨S128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x128, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x128, .f32⟩
  | 19 => ⟨S100000x128, .f32⟩
  | 20 => ⟨S128x64, .f32⟩
  | 21 => ⟨S100000x64, .f32⟩
  | 22 => ⟨S1x64, .f32⟩
  | 23 => ⟨S100000x64, .f32⟩
  | 24 => ⟨S100000x64, .f32⟩
  | 25 => ⟨S128x64, .f32⟩
  | 26 => ⟨S100000x64, .f32⟩
  | 27 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_cst : Ref sig .tc := ⟨.hbm, 70, rfl⟩
abbrev main_call0_v0 : Ref sig .tc := ⟨.hbm, 71, rfl⟩
abbrev main_v44 : Ref sig .tc := ⟨.hbm, 72, rfl⟩
abbrev main_c_5 : Ref sig .tc := ⟨.hbm, 73, rfl⟩
abbrev main_v45 : Ref sig .tc := ⟨.hbm, 74, rfl⟩
abbrev main_v46 : Ref sig .tc := ⟨.hbm, 75, rfl⟩
abbrev main_c_6 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_7 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_8 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_10 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_11 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call1_cst : Ref sig .tc := ⟨.hbm, 120, rfl⟩
abbrev main_call1_v0 : Ref sig .tc := ⟨.hbm, 121, rfl⟩
abbrev main_v85 : Ref sig .tc := ⟨.hbm, 122, rfl⟩
abbrev main_c_12 : Ref sig .tc := ⟨.hbm, 123, rfl⟩
abbrev main_v86 : Ref sig .tc := ⟨.hbm, 124, rfl⟩
abbrev main_v87 : Ref sig .tc := ⟨.hbm, 125, rfl⟩
abbrev main_c_13 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_14 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_15 : Ref sig .tc := ⟨.hbm, 136, rfl⟩
abbrev main_v96 : Ref sig .tc := ⟨.hbm, 137, rfl⟩
abbrev main_cst_16 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_17 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibRowOps.lean ====
/-
  Reads at an index, for rank-2 arrays, of the operations a row-wise kernel and its reference are built from — stated
  for any extents, at the ideal values (floats are extended reals) where a float operation is involved:

  * a matrix product contracting the left operand's columns with the right operand's rows (a `tpu.matmul` into the
    zero accumulator, the host's `dot_general`), read at `(i, j)`, is the sum over `k` of `l (i, k) * r (k, j)`;
  * three equally wide arrays joined along the columns, read at `(a, c)`, are piece `c / 64` at `(a, c % 64)`;
  * a column `[a, 1]` broadcast along the rows' direction to `[a, b]` reads, at `(p, c)`, the column at `p`;
  * a scalar broadcast to any shape reads the scalar everywhere.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Idealize.ShloMosaic.RowOps

open Idealize.ShloMosaic Idealize.ShloMosaic.ValueIdx

/-! ## The plain matrix product -/

/-- The dimension numbers of `[A, K] × [K, B] → [A, B]`: the left operand's axis 1 contracted with the right operand's
    axis 0, no batch axis. -/
abbrev plainDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row, whatever the contraction position. -/
theorem plain_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column, whatever the contraction position. -/
theorem plain_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (plainDims wf).contr.Idx) :
    ((plainDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a plain matrix product, re-indexed by the contracted coordinate: at `j = (i, c)` the left
    operand is read along row `i`, the right one down column `c`. -/
theorem plainDot_sum {A K B : Nat} (d : DotDims (⟨2, ![A, K]⟩ : Shape) ⟨2, ![K, B]⟩ ⟨2, ![A, B]⟩)
    (hd : ∃ wf, d = plainDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (plainDims wf) K rfl rfl).symm]
  refine Finset.sum_congr rfl fun k _ => ?_
  have hk := contrEquiv1_symm_val (plainDims wf) K rfl rfl k
  have el : (plainDims wf).lhsIdx j ((contrEquiv1 (plainDims wf) K rfl rfl).symm k) = ix2 (j 0) k :=
    funext fun a => Fin.ext (by
      match a with
      | ⟨0, _⟩ => exact plain_lhs0 wf j _
      | ⟨1, _⟩ => exact ((plainDims wf).lhsIdx_val_of_single (cl := 1) rfl j _).trans hk)
  have er : (plainDims wf).rhsIdx j ((contrEquiv1 (plainDims wf) K rfl rfl).symm k) = ix2 k (j 1) :=
    funext fun a => Fin.ext (by
      match a with
      | ⟨0, _⟩ => exact ((plainDims wf).rhsIdx_val_of_single (cr := 0) rfl j _).trans hk
      | ⟨1, _⟩ => exact plain_rhs1 wf j _)
  rw [el, er]
  rfl

/-- A `tpu.matmul` of a plain product into the zero accumulator, read at `(i, c)`: the sum over `k` of
    `l (i, k) * r (k, c)`. -/
theorem matmul_zero_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact plainDot_sum d hd l r (ix2 i c)

/-- The host's `dot_general` of a plain product, read at `(i, c)`: the same sum. -/
theorem dotGeneral_plain_apply {A K B : Nat} {φ₁ φ₂ : FTy} (d : DotDims (⟨2, ![A, K]⟩ : Shape) ⟨2, ![K, B]⟩ ⟨2, ![A, B]⟩)
    (hd : ∃ wf, d = plainDims wf) (prec : Option ContractPrecision) (sched : HostSchedule)
    (l : FVec Ideal (⟨2, ![A, K]⟩ : Shape) φ₁) (r : FVec Ideal (⟨2, ![K, B]⟩ : Shape) φ₂) (i : Fin A) (c : Fin B) :
    FloatOps.dotGeneral d prec sched l r (ix2 i c) = ∑ k : Fin K, l (ix2 i k) * r (ix2 k c) := by
  rw [Ideal.dotGeneral_apply]
  exact plainDot_sum d hd l r (ix2 i c)

/-! ## Three pieces joined along the columns -/

variable {α : Type}

/-- Three `[A, 64]` arrays joined along axis 1 into `[A, 192]`, read at `(a, c)`: piece `c / 64` at `(a, c % 64)`. -/
theorem concat3_apply {A : Nat} (u0 u1 u2 : (⟨2, ![A, 64]⟩ : Shape).Idx → α)
    (h : Shape.Concatenates [(⟨2, ![A, 64]⟩ : Shape), ⟨2, ![A, 64]⟩, ⟨2, ![A, 64]⟩] ⟨2, ![A, 192]⟩ 1)
    (a : Fin A) (c : Fin 192) :
    concatenate (⟨2, ![A, 192]⟩ : Shape) 1 [⟨⟨2, ![A, 64]⟩, u0⟩, ⟨⟨2, ![A, 64]⟩, u1⟩, ⟨⟨2, ![A, 64]⟩, u2⟩] h (ix2 a c)
      = (![u0, u1, u2] ⟨c.val / 64, by have := c.isLt; omega⟩) (ix2 a ⟨c.val % 64, Nat.mod_lt _ (by decide)⟩) := by
  refine concatenate_ofFn_apply (t := (⟨2, ![A, 192]⟩ : Shape)) (s₁ := (⟨2, ![A, 64]⟩ : Shape)) 1 ![u0, u1, u2] h rfl 64 rfl
    (ix2 a c) ⟨c.val / 64, by have := c.isLt; omega⟩ rfl (ix2 a ⟨c.val % 64, Nat.mod_lt _ (by decide)⟩) rfl ?_
  intro b hb
  match b with
  | ⟨0, _⟩ => rfl
  | ⟨1, _⟩ => exact absurd rfl hb

/-! ## A column broadcast along its rows -/

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A scalar broadcast -/

/-- A scalar broadcast to any shape reads, everywhere, the scalar. -/
theorem broadcastInDim_scalar_apply {t : Shape} (h : (⟨0, ![]⟩ : Shape).BroadcastsInDim t (![] : Fin 0 → Fin t.rank))
    (x : (⟨0, ![]⟩ : Shape).Idx → α) (j : t.Idx) :
    broadcastInDim t ![] h x j = x ix0 :=
  broadcastInDim_apply ![] h x j ix0 fun a => a.elim0

end Idealize.ShloMosaic.RowOps

end
-- ==== Proof.LibNodeLayer.lean ====
/-
  One layer of a node-wise graph network — a neighbourhood mean and the node's own features, each multiplied into a
  weight matrix stored output-major, plus a bias; optionally a per-column affine normalisation and a clamp at zero —
  read at an index over the extended reals, for any extents.

  * `linAt agg x wl wr b r j` is entry `(r, j)` of `agg · wlᵀ + x · wrᵀ + b`: row `r` of `agg` against row `j` of `wl`,
    row `r` of `x` against row `j` of `wr`, and entry `j` of the bias.
  * `normAt z g be mu var j` is `max ((z − mu j) · (g j · (var j + ε)^(−1/2)) + be j) 0`.

  A tiled kernel's body (two products into the zero accumulator per row block, the operands narrowed to bf16 on the way
  in — nothing, on extended reals —, the weights transposed in registers, every per-column vector made a row and
  broadcast down the block) and the host's operations (two `dot_general`s against transposed weights, the per-column
  vectors broadcast in two steps) both read, at an index, as these terms. The host adds the bias before the second
  product and the kernel after it: addition of extended reals is commutative and associative, with no finiteness
  needed, and that is the one law used.
-/
import proofs.«181775_j34419867910942_1_alg».proof.Proof.LibRowOps

noncomputable section

open scoped BigOperators

namespace Idealize.ShloMosaic.NodeLayer

open Idealize.ShloMosaic Idealize.ShloMosaic.ValueIdx

variable {α : Type}

/-! ## Layout pieces -/

/-- A `[b, a]` array transposed to `[a, b]` reads, at `(k, j)`, the operand at `(j, k)`. -/
theorem transpose_ba_ab_apply {a b : ℕ} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) :=
  transpose_apply [1, 0] x h (ix2 k j) (ix2 j k) fun c => by
    match c with
    | ⟨0, _⟩ => rfl
    | ⟨1, _⟩ => rfl

/-- A per-column vector `[n]` made a row and broadcast down `m` rows (the kernel's way: a shape cast, then a vector
    broadcast) reads, at `(p, q)`, the vector at `q`. -/
theorem row_body_apply {n m : ℕ} (v : (⟨1, ![n]⟩ : Shape).Idx → α)
    (hs : (⟨1, ![n]⟩ : Shape).ShapeCasts ⟨2, ![1, n]⟩) (hb : (⟨2, ![1, n]⟩ : Shape).Broadcasts ⟨2, ![m, n]⟩)
    (p : Fin m) (q : Fin n) :
    broadcastTo (⟨2, ![m, n]⟩ : Shape) (shapeCast (⟨2, ![1, n]⟩ : Shape) v hs) hb (ix2 p q) = v (ix1 q) := by
  rw [broadcastTo_1b_ab_apply, shapeCast_a_1a_apply]

/-- The same vector made a row and broadcast down `m` rows the host's way (two `broadcast_in_dim`s) reads, at
    `(p, q)`, the vector at `q`. -/
theorem row_host_apply {n m : ℕ} (v : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim (⟨2, ![m, n]⟩ : Shape) ![0, 1] h2 (broadcastInDim (⟨2, ![1, n]⟩ : Shape) ![1] h1 v) (ix2 p q)
      = v (ix1 q) := by
  rw [broadcastInDim_apply ![0, 1] h2 _ (ix2 p q) (ix2 (0 : Fin 1) q) (fun a => by
    match a with
    | ⟨0, _⟩ => show (0 : Nat) = if (1 : Nat) = 1 then 0 else p.val; rw [if_pos rfl]
    | ⟨1, _⟩ =>
      show q.val = if n = 1 then 0 else q.val
      split
      · have := q.isLt; omega
      · rfl)]
  exact broadcastInDim_apply ![1] h1 v (ix2 (0 : Fin 1) q) (ix1 q) (fun a => by
    match a with
    | ⟨0, _⟩ =>
      show q.val = if n = 1 then 0 else q.val
      split
      · have := q.isLt; omega
      · rfl)

/-! ## The layer, entry by entry -/

/-- Entry `(r, j)` of `agg · wlᵀ + x · wrᵀ + b`, the weights `[B, A]` (one row per output column). -/
def linAt {R A B : ℕ} (agg x : FVec Ideal (⟨2, ![R, A]⟩ : Shape) .f32) (wl wr : FVec Ideal (⟨2, ![B, A]⟩ : Shape) .f32)
    (b : FVec Ideal (⟨1, ![B]⟩ : Shape) .f32) (r : Fin R) (j : Fin B) : Ideal .f32 :=
  (∑ k : Fin A, agg (ix2 r k) * wl (ix2 j k)) + (∑ k : Fin A, x (ix2 r k) * wr (ix2 j k)) + b (ix1 j)

/-- The per-column normalisation and clamp of one entry `z` of column `j`:
    `max ((z − mu j) · (g j · (var j + ε)^(−1/2)) + be j) 0`, `ε` the f32 nearest to `1e-5`. -/
def normAt {B : ℕ} (z : Ideal .f32) (g be mu var : FVec Ideal (⟨1, ![B]⟩ : Shape) .f32) (j : Fin B) : Ideal .f32 :=
  max ((z - mu (ix1 j)) * (g (ix1 j) * Ideal.rsqrt (var (ix1 j) + Ideal.ofBits .f32 0x3727C5AC#32)) + be (ix1 j))
    (Ideal.ofBits .f32 0x00000000#32)

/-- An entry of the linear part reads one row of each activation array: two instances that agree there are equal. -/
theorem linAt_congr {R R' A B : ℕ} {agg x : FVec Ideal (⟨2, ![R, A]⟩ : Shape) .f32}
    {agg' x' : FVec Ideal (⟨2, ![R', A]⟩ : Shape) .f32} {wl wr : FVec Ideal (⟨2, ![B, A]⟩ : Shape) .f32}
    {b : FVec Ideal (⟨1, ![B]⟩ : Shape) .f32} {r : Fin R} {r' : Fin R'} (j : Fin B)
    (ha : ∀ k, agg (ix2 r k) = agg' (ix2 r' k)) (hx : ∀ k, x (ix2 r k) = x' (ix2 r' k)) :
    linAt agg x wl wr b r j = linAt agg' x' wl wr b r' j := by
  unfold linAt
  simp only [ha, hx]

/-- The whole layer with normalisation, as one array: entry `(r, j)` is `normAt` of `linAt`. -/
def normLayer {R A B : ℕ} (agg x : FVec Ideal (⟨2, ![R, A]⟩ : Shape) .f32) (wl wr : FVec Ideal (⟨2, ![B, A]⟩ : Shape) .f32)
    (b g be mu var : FVec Ideal (⟨1, ![B]⟩ : Shape) .f32) : FVec Ideal (⟨2, ![R, B]⟩ : Shape) .f32 :=
  fun i => normAt (linAt agg x wl wr b (i 0) (i 1)) g be mu var (i 1)

/-- The whole linear layer as one array. -/
def linLayer {R A B : ℕ} (agg x : FVec Ideal (⟨2, ![R, A]⟩ : Shape) .f32) (wl wr : FVec Ideal (⟨2, ![B, A]⟩ : Shape) .f32)
    (b : FVec Ideal (⟨1, ![B]⟩ : Shape) .f32) : FVec Ideal (⟨2, ![R, B]⟩ : Shape) .f32 :=
  fun i => linAt agg x wl wr b (i 0) (i 1)

/-- Row `r` of a block against row `r'` of the whole arrays: the normalised layer's entries agree when the two rows of
    each activation array do and the weights and per-column vectors are the same. -/
theorem normLin_congr {R R' A B : ℕ} {agg x : FVec Ideal (⟨2, ![R, A]⟩ : Shape) .f32}
    {agg' x' : FVec Ideal (⟨2, ![R', A]⟩ : Shape) .f32} {wl wr wl' wr' : FVec Ideal (⟨2, ![B, A]⟩ : Shape) .f32}
    {b g be mu var b' g' be' mu' var' : FVec Ideal (⟨1, ![B]⟩ : Shape) .f32} {r : Fin R} {r' : Fin R'} (j : Fin B)
    (ha : ∀ k, agg (ix2 r k) = agg' (ix2 r' k)) (hx : ∀ k, x (ix2 r k) = x' (ix2 r' k))
    (hwl : wl = wl') (hwr : wr = wr') (hb : b = b') (hg : g = g') (hbe : be = be') (hmu : mu = mu') (hvar : var = var') :
    normAt (linAt agg x wl wr b r j) g be mu var j = normAt (linAt agg' x' wl' wr' b' r' j) g' be' mu' var' j := by
  subst hwl hwr hb hg hbe hmu hvar
  rw [linAt_congr j ha hx]

/-- The same for the linear layer alone. -/
theorem lin_congr {R R' A B : ℕ} {agg x : FVec Ideal (⟨2, ![R, A]⟩ : Shape) .f32}
    {agg' x' : FVec Ideal (⟨2, ![R', A]⟩ : Shape) .f32} {wl wr wl' wr' : FVec Ideal (⟨2, ![B, A]⟩ : Shape) .f32}
    {b b' : FVec Ideal (⟨1, ![B]⟩ : Shape) .f32} {r : Fin R} {r' : Fin R'} (j : Fin B)
    (ha : ∀ k, agg (ix2 r k) = agg' (ix2 r' k)) (hx : ∀ k, x (ix2 r k) = x' (ix2 r' k))
    (hwl : wl = wl') (hwr : wr = wr') (hb : b = b') :
    linAt agg x wl wr b r j = linAt agg' x' wl' wr' b' r' j := by
  subst hwl hwr hb
  exact linAt_congr j ha hx

/-- The zero offsets of a whole-block access, rank 2 and rank 1. -/
theorem zero_offsets2 : (![0, 0] : Fin 2 → Nat) = fun _ => 0 := funext fun a => by fin_cases a <;> rfl
theorem zero_offsets1 : (![0] : Fin 1 → Nat) = fun _ => 0 := funext fun a => by fin_cases a; rfl

/-! ## The kernel's body -/

/-- The linear part of the body on one row block. -/
theorem lin_body_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![B, A]⟩ : Shape) .f32)
    (b : FVec Ideal (⟨1, ![B]⟩ : Shape) .f32)
    (ht : (⟨2, ![B, A]⟩ : Shape).Transposes [1, 0] ⟨2, ![A, B]⟩)
    (hs : (⟨1, ![B]⟩ : Shape).ShapeCasts ⟨2, ![1, B]⟩) (hb : (⟨2, ![1, B]⟩ : Shape).Broadcasts ⟨2, ![R, B]⟩)
    (hlt : FTy.bf16.bits < FTy.f32.bits) (r : Fin R) (j : Fin B) :
    addf (addf (matmul d none (truncf .bf16 agg hlt) (transpose _ [1, 0] (truncf .bf16 wl hlt) ht) (constant _ .f32 0x00000000#32))
          (matmul d none (truncf .bf16 x hlt) (transpose _ [1, 0] (truncf .bf16 wr hlt) ht) (constant _ .f32 0x00000000#32)))
        (broadcastTo _ (shapeCast _ b hs) hb) (ix2 r j)
      = linAt agg x wl wr b r j := by
  rw [addf_apply, addf_apply, row_body_apply]
  unfold matmul
  rw [RowOps.matmul_zero_plain_apply d hd, RowOps.matmul_zero_plain_apply d hd]
  unfold linAt
  refine congrArg₂ (· + ·) (congrArg₂ (· + ·) (Finset.sum_congr rfl fun k _ => ?_) (Finset.sum_congr rfl fun k _ => ?_)) rfl
  · rw [transpose_ba_ab_apply]; rfl
  · rw [transpose_ba_ab_apply]; rfl

/-- The normalisation and clamp of the body on one row block, over any pre-activation `z`. -/
theorem norm_body_apply {R B : ℕ} (z : FVec Ideal (⟨2, ![R, B]⟩ : Shape) .f32)
    (g be mu var : FVec Ideal (⟨1, ![B]⟩ : Shape) .f32)
    (hs : (⟨1, ![B]⟩ : Shape).ShapeCasts ⟨2, ![1, B]⟩) (hb : (⟨2, ![1, B]⟩ : Shape).Broadcasts ⟨2, ![R, B]⟩)
    (r : Fin R) (j : Fin B) :
    maximumf (addf (mulf (subf z (broadcastTo _ (shapeCast _ mu hs) hb))
          (broadcastTo _ (mulf (shapeCast _ g hs)
            (rsqrt (addf (shapeCast _ var hs) (broadcast _ (Scalar.ofBits (F := Ideal) .f32 0x3727C5AC#32))))) hb))
        (broadcastTo _ (shapeCast _ be hs) hb))
      (broadcast _ (Scalar.ofBits (F := Ideal) .f32 0x00000000#32)) (ix2 r j)
      = normAt (z (ix2 r j)) g be mu var j := by
  rw [maximumf_apply, addf_apply, mulf_apply, subf_apply, row_body_apply, row_body_apply, broadcastTo_1b_ab_apply,
    mulf_apply, shapeCast_a_1a_apply]
  show max ((z (ix2 r j) - mu (ix1 j)) * (g (ix1 j) * Ideal.rsqrt (shapeCast _ var hs (ix2 (0 : Fin 1) j) + _)) + be (ix1 j)) _ = _
  rw [shapeCast_a_1a_apply]
  rfl

/-! ## The host's operations -/

/-- The linear part the host's way; the bias is added before the second product, which is the same sum. -/
theorem lin_host_apply {R A B : ℕ}
    (d : DotDims (⟨2, ![R, A]⟩ : Shape) ⟨2, ![A, B]⟩ ⟨2, ![R, B]⟩) (hd : ∃ wf, d = RowOps.plainDims wf)
    (agg x : FVec Ideal (⟨2, ![R, A]⟩ : Shape) .f32) (wl wr : FVec Ideal (⟨2, ![B, A]⟩ : Shape) .f32)
    (b : FVec Ideal (⟨1, ![B]⟩ : Shape) .f32)
    (ht : (⟨2, ![B, A]⟩ : Shape).Transposes [1, 0] ⟨2, ![A, B]⟩)
    (h1 : (⟨1, ![B]⟩ : Shape).BroadcastsInDim ⟨2, ![1, B]⟩ ![1])
    (h2 : (⟨2, ![1, B]⟩ : Shape).BroadcastsInDim ⟨2, ![R, B]⟩ ![0, 1]) (r : Fin R) (j : Fin B) :
    addf (addf (Host.dotGeneral d none agg (transpose _ [1, 0] wl ht))
          (broadcastInDim _ ![0, 1] h2 (broadcastInDim (⟨2, ![1, B]⟩ : Shape) ![1] h1 b)))
        (Host.dotGeneral d none x (transpose _ [1, 0] wr ht)) (ix2 r j)
      = linAt agg x wl wr b r j := by
  rw [addf_apply, addf_apply, row_host_apply]
  unfold Host.dotGeneral
  rw [RowOps.dotGeneral_plain_apply d hd, RowOps.dotGeneral_plain_apply d hd]
  unfold linAt
  rw [add_right_comm]
  refine congrArg₂ (· + ·) (congrArg₂ (· + ·) (Finset.sum_congr rfl fun k _ => ?_) (Finset.sum_congr rfl fun k _ => ?_)) rfl
  · rw [transpose_ba_ab_apply]
  · rw [transpose_ba_ab_apply]

/-- The normalisation and clamp the host's way, over any pre-activation `z`. -/
theorem norm_host_apply {R B : ℕ} (z : FVec Ideal (⟨2, ![R, B]⟩ : Shape) .f32)
    (g be mu var : FVec Ideal (⟨1, ![B]⟩ : Shape) .f32)
    (h1 : (⟨1, ![B]⟩ : Shape).BroadcastsInDim ⟨2, ![1, B]⟩ ![1])
    (h2 : (⟨2, ![1, B]⟩ : Shape).BroadcastsInDim ⟨2, ![R, B]⟩ ![0, 1])
    (he : (⟨0, ![]⟩ : Shape).BroadcastsInDim ⟨1, ![B]⟩ ![]) (hz : (⟨0, ![]⟩ : Shape).BroadcastsInDim ⟨2, ![R, B]⟩ ![])
    (r : Fin R) (j : Fin B) :
    maximumf (addf (mulf (subf z (broadcastInDim _ ![0, 1] h2 (broadcastInDim (⟨2, ![1, B]⟩ : Shape) ![1] h1 mu)))
          (broadcastInDim _ ![0, 1] h2 (broadcastInDim (⟨2, ![1, B]⟩ : Shape) ![1] h1
            (mulf g (Host.rsqrt (addf var (broadcastInDim _ ![] he (constant (F := Ideal) ⟨0, ![]⟩ .f32 0x3727C5AC#32))))))))
        (broadcastInDim _ ![0, 1] h2 (broadcastInDim (⟨2, ![1, B]⟩ : Shape) ![1] h1 be)))
      (broadcastInDim _ ![] hz (constant (F := Ideal) ⟨0, ![]⟩ .f32 0x00000000#32)) (ix2 r j)
      = normAt (z (ix2 r j)) g be mu var j := by
  rw [maximumf_apply, addf_apply, mulf_apply, subf_apply, row_host_apply, row_host_apply, row_host_apply,
    RowOps.broadcastInDim_scalar_apply, mulf_apply]
  unfold Host.rsqrt
  rw [addf_apply, RowOps.broadcastInDim_scalar_apply]
  rfl

end Idealize.ShloMosaic.NodeLayer

end
-- ==== Proof.RefLayers.lean ====
/-
  The reference program read as a three-layer network. Each layer takes the node features `h` and the edge list,
  forms every node's neighbourhood mean (gather the source rows, add them into their target rows, divide by the
  in-degree clamped below at one — the host operations of the reference's first stage, kept here as ONE function `mean`
  and never opened), and applies `mean · wlᵀ + b + h · wrᵀ`; the first two layers then normalise per column and clamp at
  zero. The generated stage functions of the reference are shown to be these layers entry by entry, and the reference's
  result to be the composition `net` of the three.
-/
import proofs.«181775_j34419867910942_1_alg».proof.Proof.Gen.ReferenceIdeal.Read
import proofs.«181775_j34419867910942_1_alg».proof.Proof.LibNodeLayer

set_option maxRecDepth 16384

noncomputable section

namespace Cert.ReferenceIdeal.RefValue

open Cert.ReferenceIdeal Cert.ReferenceIdeal.Read
open Idealize.ShloMosaic Idealize.ShloMosaic.ValueIdx Idealize.ShloMosaic.NodeLayer

/-- A float array of shape `s` and the edge list, at the ideal values. -/
abbrev CF (s : Shape) : Type := (⟨s, .f32⟩ : BufTy).Contents (Elt Ideal)
abbrev CE : Type := (⟨S2x1600000, .i32⟩ : BufTy).Contents (Elt Ideal)

/-- Every node's neighbourhood mean of the features `h` along the edges `e`: the reference's own first-stage
    operations (gather, accumulate into the targets, divide by the clamped in-degree), as one function. -/
def mean (h : CF S100000x128) (e : CE) : CF S100000x128 := val_main_v22 (F := Ideal) h e

/-- A layer with normalisation and clamp. -/
def normStage (h : CF S100000x128) (e : CE) (wl : CF S128x128) (b : CF S128) (wr : CF S128x128) (g be mu var : CF S128) :
    CF S100000x128 :=
  normLayer (R := 100000) (A := 128) (B := 128) (mean h e) h wl wr b g be mu var

/-- The last, linear layer. -/
def linStage (h : CF S100000x128) (e : CE) (wl : CF S64x128) (b : CF S64) (wr : CF S64x128) : CF S100000x64 :=
  linLayer (R := 100000) (A := 128) (B := 64) (mean h e) h wl wr b

/-- The network: two normalised layers and the linear one, each over the same edges. -/
def net (x0 : CF S100000x128) (x1 : CE) (x2 : CF S128x128) (x3 : CF S128) (x4 : CF S128x128) (x5 x6 x7 x8 : CF S128)
    (x9 : CF S128x128) (x10 : CF S128) (x11 : CF S128x128) (x12 x13 x14 x15 : CF S128)
    (x16 : CF S64x128) (x17 : CF S64) (x18 : CF S64x128) : CF S100000x64 :=
  linStage (normStage (normStage x0 x1 x2 x3 x4 x5 x6 x7 x8) x1 x9 x10 x11 x12 x13 x14 x15) x1 x16 x17 x18

variable (x0 : CF S100000x128) (x1 : CE) (x2 : CF S128x128) (x3 : CF S128) (x4 : CF S128x128) (x5 x6 x7 x8 : CF S128)
  (x9 : CF S128x128) (x10 : CF S128) (x11 : CF S128x128) (x12 x13 x14 x15 : CF S128)
  (x16 : CF S64x128) (x17 : CF S64) (x18 : CF S64x128)

/-- The reference's first hidden array is the first normalised layer of the features. -/
theorem layer1 : val_main_v44 (F := Ideal) x0 x1 x2 x3 x4 x5 x6 x7 x8 = normStage x0 x1 x2 x3 x4 x5 x6 x7 x8 := by
  funext i
  obtain ⟨r, j, rfl⟩ : ∃ (r : Fin 100000) (j : Fin 128), i = ix2 r j := ⟨i 0, i 1, eq_ix2 (n0 := 100000) (n1 := 128) i⟩
  refine (norm_host_apply (R := 100000) (B := 128) (val_main_v30 (F := Ideal) x0 x1 x2 x3 x4) x5 x6 x7 x8 _ _ _ _ r j).trans ?_
  refine congrArg (fun z => normAt z x5 x6 x7 x8 j) ?_
  exact lin_host_apply (R := 100000) (A := 128) (B := 128) _ ⟨_, rfl⟩ (val_main_v22 (F := Ideal) x0 x1) x0 x2 x4 x3 _ _ _ r j

/-- The second stage's mean is the same function of the first hidden array and the edges. -/
theorem mean2 : val_main_v63 (F := Ideal) x0 x1 x2 x3 x4 x5 x6 x7 x8 = mean (val_main_v44 (F := Ideal) x0 x1 x2 x3 x4 x5 x6 x7 x8) x1 := rfl

/-- The reference's second hidden array is the normalised layer of the first. -/
theorem layer2 : val_main_v85 (F := Ideal) x0 x1 x2 x3 x4 x5 x6 x7 x8 x9 x10 x11 x12 x13 x14 x15
    = normStage (val_main_v44 (F := Ideal) x0 x1 x2 x3 x4 x5 x6 x7 x8) x1 x9 x10 x11 x12 x13 x14 x15 := by
  unfold normStage
  rw [← mean2]
  funext i
  obtain ⟨r, j, rfl⟩ : ∃ (r : Fin 100000) (j : Fin 128), i = ix2 r j := ⟨i 0, i 1, eq_ix2 (n0 := 100000) (n1 := 128) i⟩
  refine (norm_host_apply (R := 100000) (B := 128) (val_main_v71 (F := Ideal) x0 x1 x2 x3 x4 x5 x6 x7 x8 x9 x10 x11) x12 x13 x14 x15 _ _ _ _ r j).trans ?_
  refine congrArg (fun z => normAt z x12 x13 x14 x15 j) ?_
  exact lin_host_apply (R := 100000) (A := 128) (B := 128) _ ⟨_, rfl⟩ (val_main_v63 (F := Ideal) x0 x1 x2 x3 x4 x5 x6 x7 x8)
    (val_main_v44 (F := Ideal) x0 x1 x2 x3 x4 x5 x6 x7 x8) x9 x11 x10 _ _ _ r j

/-- The third stage's mean is the same function of the second hidden array and the edges. -/
theorem mean3 : val_main_v104 (F := Ideal) x0 x1 x2 x3 x4 x5 x6 x7 x8 x9 x10 x11 x12 x13 x14 x15 = mean (val_main_v85 (F := Ideal) x0 x1 x2 x3 x4 x5 x6 x7 x8 x9 x10 x11 x12 x13 x14 x15) x1 := rfl

/-- The reference's result is the linear layer of the second hidden array. -/
theorem layer3 : val_main_v112 (F := Ideal) x0 x1 x2 x3 x4 x5 x6 x7 x8 x9 x10 x11 x12 x13 x14 x15 x16 x17 x18
    = linStage (val_main_v85 (F := Ideal) x0 x1 x2 x3 x4 x5 x6 x7 x8 x9 x10 x11 x12 x13 x14 x15) x1 x16 x17 x18 := by
  unfold linStage
  rw [← mean3]
  funext i
  obtain ⟨r, j, rfl⟩ : ∃ (r : Fin 100000) (j : Fin 64), i = ix2 r j := ⟨i 0, i 1, eq_ix2 (n0 := 100000) (n1 := 64) i⟩
  exact lin_host_apply (R := 100000) (A := 128) (B := 64) _ ⟨_, rfl⟩ (val_main_v104 (F := Ideal) x0 x1 x2 x3 x4 x5 x6 x7 x8 x9 x10 x11 x12 x13 x14 x15)
    (val_main_v85 (F := Ideal) x0 x1 x2 x3 x4 x5 x6 x7 x8 x9 x10 x11 x12 x13 x14 x15) x16 x18 x17 _ _ _ r j

/-- The reference's result is the network of its arguments. -/
theorem result : val_main_v112 (F := Ideal) x0 x1 x2 x3 x4 x5 x6 x7 x8 x9 x10 x11 x12 x13 x14 x15 x16 x17 x18 = net x0 x1 x2 x3 x4 x5 x6 x7 x8 x9 x10 x11 x12 x13 x14 x15 x16 x17 x18 := by
  rw [layer3, layer2, layer1]
  rfl

end Cert.ReferenceIdeal.RefValue

end
-- ==== Proof.KernelRun.lean ====
/-
  The idealized kernel's run with its result named. The program is three pipelined regions among stretches of host
  operations; the generated frame follows the TensorCore's buffer contents through the six segments (`W0 … W6`) and ends
  with every unscoped buffer at the last boundary's contents `W6`. Its frame theorem keeps of that only the argument
  arrays; here the same launch is read once more, keeping also the result buffer: after any weakly fair execution the
  result array holds `W6`'s contents at the result's reference, and the arguments are as launched.
-/
import proofs.«181775_j34419867910942_1_alg».proof.Proof.FrameKernelIdealP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last segment
    boundary's contents and every argument array as launched. -/
theorem run_result : θ_run defs (onTc (τ := τ) (main (F := F))) ⟨m, fun _ => 0, ρ⟩ (fun r => ∀ c : Dev nD,
      r.2.mem ((c.tc : Thread nD τ).loc main_v49) = W6 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v49 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

end Cert.KernelIdeal.Hand

end
-- ==== Proof.Region0.lean ====
/-
  Region 0 of the idealized kernel (a layer with normalisation and clamp), at ANY contents `V` of the TensorCore's buffers
  when the region is entered. The region walks 50 row blocks of 2000 rows; at each point the body loads the mean
  block, the feature block, both weight matrices and the per-column vectors whole, and stores one block of the result.
  Written here: the stored value at an index of the block (`pay0_apply`), each window's block as rows of its array
  (`iblk0_*`), so what a point writes back is its block of ONE whole-array function (`flushed0`), the blocks tile the
  output (`cover0`), and therefore the output array after the region is that function (`region0`).
-/
import proofs.«181775_j34419867910942_1_alg».proof.Proof.FrameKernelIdealP
import proofs.«181775_j34419867910942_1_alg».proof.Proof.LibNodeLayer
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem
open Idealize.ShloMosaic.ValueIdx Idealize.ShloMosaic.NodeLayer
open Idealize.ShloMosaic.Pipeline (Dat)

variable (V : (c : Dev nD) → (b : Ref sig .tc) → Buf (Elt Ideal) ((c : Thread nD τ).loc b))

/-- The body's stored value at `(p, q)` of a row block: the layer's entry of the loaded blocks. -/
theorem pay0_apply (x0 x1 : Vec Ideal S2000x128 .f32) (x2 x3 : Vec Ideal S128x128 .f32) (x4 x5 x6 x7 x8 : Vec Ideal S128 .f32)
    (p : Fin 2000) (q : Fin 128) :
    k0_pay1 x0 x1 x2 x3 x4 x5 x6 x7 x8 (ix2 p q) = normAt (linAt x0 x1 x2 x3 x4 p q) x5 x6 x7 x8 q := by
  unfold k0_pay1
  refine (norm_body_apply _ x5 x6 x7 x8 _ _ p q).trans ?_
  refine congrArg (fun z => normAt z x5 x6 x7 x8 q) ?_
  simp only [shapeCast_self]
  exact lin_body_apply _ ⟨_, rfl⟩ x0 x1 x2 x3 x4 _ _ _ _ p q

/-- The printed index maps over the grid: the two activation windows and the output move one row block per point,
    every other window stays on its one block. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 1) = 0
    ∧ win0_5.index t (0 : Fin 1) = 0
    ∧ win0_6.index t (0 : Fin 1) = 0
    ∧ win0_7.index t (0 : Fin 1) = 0
    ∧ win0_8.index t (0 : Fin 1) = 0
    ∧ win0_9.index t (0 : Fin 2) = t.val
    ∧ win0_9.index t (1 : Fin 2) = 0 :=
  (by decide +kernel : ∀ t : Fin grid0.N, _)

theorem point_lt0 (t : Fin cfg0.N) : t.val < 50 := lt_of_lt_of_eq t.isLt N_0

/-- Activation window 0's block at point `t` is rows `2000 t … 2000 t + 1999` of its array. -/
theorem iblk0_0_apply (c : Dev nD) (t : Fin cfg0.N) (p : Fin 2000) (k : Fin 128) (i : Fin 100000)
    (hi : i.val = t.val * 2000 + p.val) :
    (iblk0 V c 0 t : Vec Ideal S2000x128 .f32) (ix2 p k) = (V c main_v22 : S100000x128.Idx → Ideal .f32) (ix2 i k) := by
  obtain ⟨e0, e1, -, -, -, -, -, -, -, -, -, -, -, -, -⟩ := idx0 t
  unfold iblk0
  rw [View.read_apply]
  show V c main_v22 _ = V c main_v22 _
  refine congrArg _ (funext fun a => Fin.ext ?_)
  match a with
  | ⟨0, _⟩ => show win0_0.index t (0 : Fin 2) * 2000 + 1 * p.val = i.val; rw [e0, hi]; omega
  | ⟨1, _⟩ => show win0_0.index t (1 : Fin 2) * 128 + 1 * k.val = k.val; rw [e1]; omega

/-- Activation window 1's block at point `t` is rows `2000 t … 2000 t + 1999` of its array. -/
theorem iblk0_1_apply (c : Dev nD) (t : Fin cfg0.N) (p : Fin 2000) (k : Fin 128) (i : Fin 100000)
    (hi : i.val = t.val * 2000 + p.val) :
    (iblk0 V c 1 t : Vec Ideal S2000x128 .f32) (ix2 p k) = (V c main_arg0 : S100000x128.Idx → Ideal .f32) (ix2 i k) := by
  obtain ⟨-, -, e2, e3, -, -, -, -, -, -, -, -, -, -, -⟩ := idx0 t
  unfold iblk0
  rw [View.read_apply]
  show V c main_arg0 _ = V c main_arg0 _
  refine congrArg _ (funext fun a => Fin.ext ?_)
  match a with
  | ⟨0, _⟩ => show win0_1.index t (0 : Fin 2) * 2000 + 1 * p.val = i.val; rw [e2, hi]; omega
  | ⟨1, _⟩ => show win0_1.index t (1 : Fin 2) * 128 + 1 * k.val = k.val; rw [e3]; omega

/-- Weight window 2's one block is its whole array. -/
theorem iblk0_2_eq (c : Dev nD) (t : Fin cfg0.N) :
    (iblk0 V c 2 t : Vec Ideal S128x128 .f32) = (V c main_arg2 : S128x128.Idx → Ideal .f32) := by
  obtain ⟨-, -, -, -, e4, e5, -, -, -, -, -, -, -, -, -⟩ := idx0 t
  funext y
  unfold iblk0
  rw [View.read_apply]
  show V c main_arg2 _ = V c main_arg2 y
  refine congrArg _ (funext fun a => Fin.ext ?_)
  match a with
  | ⟨0, _⟩ => show win0_2.index t (0 : Fin 2) * 128 + 1 * (y 0).val = (y 0).val; rw [e4]; omega
  | ⟨1, _⟩ => show win0_2.index t (1 : Fin 2) * 128 + 1 * (y 1).val = (y 1).val; rw [e5]; omega

/-- Weight window 3's one block is its whole array. -/
theorem iblk0_3_eq (c : Dev nD) (t : Fin cfg0.N) :
    (iblk0 V c 3 t : Vec Ideal S128x128 .f32) = (V c main_arg4 : S128x128.Idx → Ideal .f32) := by
  obtain ⟨-, -, -, -, -, -, e6, e7, -, -, -, -, -, -, -⟩ := idx0 t
  funext y
  unfold iblk0
  rw [View.read_apply]
  show V c main_arg4 _ = V c main_arg4 y
  refine congrArg _ (funext fun a => Fin.ext ?_)
  match a with
  | ⟨0, _⟩ => show win0_3.index t (0 : Fin 2) * 128 + 1 * (y 0).val = (y 0).val; rw [e6]; omega
  | ⟨1, _⟩ => show win0_3.index t (1 : Fin 2) * 128 + 1 * (y 1).val = (y 1).val; rw [e7]; omega

/-- Per-column window 4's one block is its whole vector. -/
theorem iblk0_4_eq (c : Dev nD) (t : Fin cfg0.N) :
    (iblk0 V c 4 t : Vec Ideal S128 .f32) = (V c main_arg3 : S128.Idx → Ideal .f32) := by
  obtain ⟨-, -, -, -, -, -, -, -, e8, -, -, -, -, -, -⟩ := idx0 t
  funext y
  unfold iblk0
  rw [View.read_apply]
  show V c main_arg3 _ = V c main_arg3 y
  refine congrArg _ (funext fun a => Fin.ext ?_)
  match a with
  | ⟨0, _⟩ => show win0_4.index t (0 : Fin 1) * 128 + 1 * (y 0).val = (y 0).val; rw [e8]; omega

/-- Per-column window 5's one block is its whole vector. -/
theorem iblk0_5_eq (c : Dev nD) (t : Fin cfg0.N) :
    (iblk0 V c 5 t : Vec Ideal S128 .f32) = (V c main_arg5 : S128.Idx → Ideal .f32) := by
  obtain ⟨-, -, -, -, -, -, -, -, -, e9, -, -, -, -, -⟩ := idx0 t
  funext y
  unfold iblk0
  rw [View.read_apply]
  show V c main_arg5 _ = V c main_arg5 y
  refine congrArg _ (funext fun a => Fin.ext ?_)
  match a with
  | ⟨0, _⟩ => show win0_5.index t (0 : Fin 1) * 128 + 1 * (y 0).val = (y 0).val; rw [e9]; omega

/-- Per-column window 6's one block is its whole vector. -/
theorem iblk0_6_eq (c : Dev nD) (t : Fin cfg0.N) :
    (iblk0 V c 6 t : Vec Ideal S128 .f32) = (V c main_arg6 : S128.Idx → Ideal .f32) := by
  obtain ⟨-, -, -, -, -, -, -, -, -, -, e10, -, -, -, -⟩ := idx0 t
  funext y
  unfold iblk0
  rw [View.read_apply]
  show V c main_arg6 _ = V c main_arg6 y
  refine congrArg _ (funext fun a => Fin.ext ?_)
  match a with
  | ⟨0, _⟩ => show win0_6.index t (0 : Fin 1) * 128 + 1 * (y 0).val = (y 0).val; rw [e10]; omega

/-- Per-column window 7's one block is its whole vector. -/
theorem iblk0_7_eq (c : Dev nD) (t : Fin cfg0.N) :
    (iblk0 V c 7 t : Vec Ideal S128 .f32) = (V c main_arg7 : S128.Idx → Ideal .f32) := by
  obtain ⟨-, -, -, -, -, -, -, -, -, -, -, e11, -, -, -⟩ := idx0 t
  funext y
  unfold iblk0
  rw [View.read_apply]
  show V c main_arg7 _ = V c main_arg7 y
  refine congrArg _ (funext fun a => Fin.ext ?_)
  match a with
  | ⟨0, _⟩ => show win0_7.index t (0 : Fin 1) * 128 + 1 * (y 0).val = (y 0).val; rw [e11]; omega

/-- Per-column window 8's one block is its whole vector. -/
theorem iblk0_8_eq (c : Dev nD) (t : Fin cfg0.N) :
    (iblk0 V c 8 t : Vec Ideal S128 .f32) = (V c main_arg8 : S128.Idx → Ideal .f32) := by
  obtain ⟨-, -, -, -, -, -, -, -, -, -, -, -, e12, -, -⟩ := idx0 t
  funext y
  unfold iblk0
  rw [View.read_apply]
  show V c main_arg8 _ = V c main_arg8 y
  refine congrArg _ (funext fun a => Fin.ext ?_)
  match a with
  | ⟨0, _⟩ => show win0_8.index t (0 : Fin 1) * 128 + 1 * (y 0).val = (y 0).val; rw [e12]; omega

/-- The layer of this region, as one function of the arrays the region finds. -/
abbrev layer0 (c : Dev nD) : S100000x128.Idx → Ideal .f32 :=
  normLayer (V c main_v22) (V c main_arg0) (V c main_arg2) (V c main_arg4) (V c main_arg3) (V c main_arg5) (V c main_arg6) (V c main_arg7) (V c main_arg8)

/-- What point `t` writes back is block `t` of the layer of the region-entry arrays. -/
theorem flushed0 (c : Dev nD) (t : Fin cfg0.N) :
    (dat0 V c).flushed 9 t = ((cfg0.win 9).blk t).view.read (Elt Ideal) (layer0 V c) := by
  show (cfg0.win 9).cut (grid0.coords t) ((dat0 V c).after 9 t) = _
  rw [after0_9]
  unfold out0_9
  rw [View.canon_unit_zero zero_offsets2]
  simp only [View.ld_unit_zero (S := S2000x128) zero_offsets2, View.ld_unit_zero (S := S128x128) zero_offsets2, View.ld_unit_zero (S := S128) zero_offsets1]
  obtain ⟨-, -, -, -, -, -, -, -, -, -, -, -, -, e13, e14⟩ := idx0 t
  have ht := point_lt0 t
  funext j
  obtain ⟨p, q, rfl⟩ : ∃ (p : Fin 2000) (q : Fin 128), j = ix2 p q := ⟨j 0, j 1, eq_ix2 (n0 := 2000) (n1 := 128) j⟩
  have he : ((cfg0.win 9).blk t).view.emb (ix2 p q) = ix2 (⟨t.val * 2000 + p.val, by have := p.isLt; omega⟩ : Fin 100000) q := by
    funext a; apply Fin.ext
    match a with
    | ⟨0, _⟩ => show win0_9.index t (0 : Fin 2) * 2000 + 1 * p.val = t.val * 2000 + p.val; rw [e13]; omega
    | ⟨1, _⟩ => show win0_9.index t (1 : Fin 2) * 128 + 1 * q.val = q.val; rw [e14]; omega
  show k0_pay1 (iblk0 V c 0 t) (iblk0 V c 1 t) (iblk0 V c 2 t) (iblk0 V c 3 t) (iblk0 V c 4 t) (iblk0 V c 5 t) (iblk0 V c 6 t) (iblk0 V c 7 t) (iblk0 V c 8 t) (ix2 p q) = layer0 V c (((cfg0.win 9).blk t).view.emb (ix2 p q))
  rw [he]
  refine (pay0_apply (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  exact normLin_congr q (fun k => iblk0_0_apply V c t p k _ rfl) (fun k => iblk0_1_apply V c t p k _ rfl)
    (iblk0_2_eq V c t) (iblk0_3_eq V c t) (iblk0_4_eq V c t) (iblk0_5_eq V c t) (iblk0_6_eq V c t) (iblk0_7_eq V c t) (iblk0_8_eq V c t)

/-- An index of the output array is in point `t`'s block iff each coordinate is in the block's range on its axis. -/
theorem mem_blk0 (t : Fin cfg0.N) (i : S100000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v23).slice (win0_9.rect t)).set ↔ _
  rw [View.set_slice_whole, Rect.mem_set_unit]
  exact Iff.rfl

/-- The output's row blocks tile its array: row `r` is in the block of point `r / 2000`. -/
theorem cover0 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_9 _, ?_⟩
  rw [mem_blk0]
  obtain ⟨-, -, -, -, -, -, -, -, -, -, -, -, -, e13, e14⟩ := idx0 ⟨(i 0).val / 2000, by rw [hN]; omega⟩
  intro a
  match a with
  | ⟨0, _⟩ =>
    show win0_9.index _ (0 : Fin 2) * 2000 ≤ (i 0).val ∧ (i 0).val < win0_9.index _ (0 : Fin 2) * 2000 + 2000
    rw [e13]; show (i 0).val / 2000 * 2000 ≤ (i 0).val ∧ (i 0).val < (i 0).val / 2000 * 2000 + 2000; omega
  | ⟨1, _⟩ =>
    show win0_9.index _ (1 : Fin 2) * 128 ≤ (i 1).val ∧ (i 1).val < win0_9.index _ (1 : Fin 2) * 128 + 128
    rw [e14]; omega

/-- After the region its output array holds the layer of the arrays the region found, whatever they were. -/
theorem region0 (c : Dev nD) : (dat0 V c).arrAt 9 cfg0.N = layer0 V c :=
  (dat0 V c).arrAt_eq_of_cover 9 (layer0 V c) (fun t _ => flushed0 V c t) (cover0)

end Cert.KernelIdeal.Hand

end
-- ==== Proof.Region1.lean ====
/-
  Region 1 of the idealized kernel (a layer with normalisation and clamp), at ANY contents `V` of the TensorCore's buffers
  when the region is entered. The region walks 50 row blocks of 2000 rows; at each point the body loads the mean
  block, the feature block, both weight matrices and the per-column vectors whole, and stores one block of the result.
  Written here: the stored value at an index of the block (`pay1_apply`), each window's block as rows of its array
  (`iblk1_*`), so what a point writes back is its block of ONE whole-array function (`flushed1`), the blocks tile the
  output (`cover1`), and therefore the output array after the region is that function (`region1`).
-/
import proofs.«181775_j34419867910942_1_alg».proof.Proof.FrameKernelIdealP
import proofs.«181775_j34419867910942_1_alg».proof.Proof.LibNodeLayer
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem
open Idealize.ShloMosaic.ValueIdx Idealize.ShloMosaic.NodeLayer
open Idealize.ShloMosaic.Pipeline (Dat)

variable (V : (c : Dev nD) → (b : Ref sig .tc) → Buf (Elt Ideal) ((c : Thread nD τ).loc b))

/-- The body's stored value at `(p, q)` of a row block: the layer's entry of the loaded blocks. -/
theorem pay1_apply (x0 x1 : Vec Ideal S2000x128 .f32) (x2 x3 : Vec Ideal S128x128 .f32) (x4 x5 x6 x7 x8 : Vec Ideal S128 .f32)
    (p : Fin 2000) (q : Fin 128) :
    k1_pay1 x0 x1 x2 x3 x4 x5 x6 x7 x8 (ix2 p q) = normAt (linAt x0 x1 x2 x3 x4 p q) x5 x6 x7 x8 q := by
  unfold k1_pay1
  refine (norm_body_apply _ x5 x6 x7 x8 _ _ p q).trans ?_
  refine congrArg (fun z => normAt z x5 x6 x7 x8 q) ?_
  simp only [shapeCast_self]
  exact lin_body_apply _ ⟨_, rfl⟩ x0 x1 x2 x3 x4 _ _ _ _ p q

/-- The printed index maps over the grid: the two activation windows and the output move one row block per point,
    every other window stays on its one block. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0
    ∧ win1_5.index t (0 : Fin 1) = 0
    ∧ win1_6.index t (0 : Fin 1) = 0
    ∧ win1_7.index t (0 : Fin 1) = 0
    ∧ win1_8.index t (0 : Fin 1) = 0
    ∧ win1_9.index t (0 : Fin 2) = t.val
    ∧ win1_9.index t (1 : Fin 2) = 0 :=
  (by decide +kernel : ∀ t : Fin grid1.N, _)

theorem point_lt1 (t : Fin cfg1.N) : t.val < 50 := lt_of_lt_of_eq t.isLt N_1

/-- Activation window 0's block at point `t` is rows `2000 t … 2000 t + 1999` of its array. -/
theorem iblk1_0_apply (c : Dev nD) (t : Fin cfg1.N) (p : Fin 2000) (k : Fin 128) (i : Fin 100000)
    (hi : i.val = t.val * 2000 + p.val) :
    (iblk1 V c 0 t : Vec Ideal S2000x128 .f32) (ix2 p k) = (V c main_v35 : S100000x128.Idx → Ideal .f32) (ix2 i k) := by
  obtain ⟨e0, e1, -, -, -, -, -, -, -, -, -, -, -, -, -⟩ := idx1 t
  unfold iblk1
  rw [View.read_apply]
  show V c main_v35 _ = V c main_v35 _
  refine congrArg _ (funext fun a => Fin.ext ?_)
  match a with
  | ⟨0, _⟩ => show win1_0.index t (0 : Fin 2) * 2000 + 1 * p.val = i.val; rw [e0, hi]; omega
  | ⟨1, _⟩ => show win1_0.index t (1 : Fin 2) * 128 + 1 * k.val = k.val; rw [e1]; omega

/-- Activation window 1's block at point `t` is rows `2000 t … 2000 t + 1999` of its array. -/
theorem iblk1_1_apply (c : Dev nD) (t : Fin cfg1.N) (p : Fin 2000) (k : Fin 128) (i : Fin 100000)
    (hi : i.val = t.val * 2000 + p.val) :
    (iblk1 V c 1 t : Vec Ideal S2000x128 .f32) (ix2 p k) = (V c main_v23 : S100000x128.Idx → Ideal .f32) (ix2 i k) := by
  obtain ⟨-, -, e2, e3, -, -, -, -, -, -, -, -, -, -, -⟩ := idx1 t
  unfold iblk1
  rw [View.read_apply]
  show V c main_v23 _ = V c main_v23 _
  refine congrArg _ (funext fun a => Fin.ext ?_)
  match a with
  | ⟨0, _⟩ => show win1_1.index t (0 : Fin 2) * 2000 + 1 * p.val = i.val; rw [e2, hi]; omega
  | ⟨1, _⟩ => show win1_1.index t (1 : Fin 2) * 128 + 1 * k.val = k.val; rw [e3]; omega

/-- Weight window 2's one block is its whole array. -/
theorem iblk1_2_eq (c : Dev nD) (t : Fin cfg1.N) :
    (iblk1 V c 2 t : Vec Ideal S128x128 .f32) = (V c main_arg9 : S128x128.Idx → Ideal .f32) := by
  obtain ⟨-, -, -, -, e4, e5, -, -, -, -, -, -, -, -, -⟩ := idx1 t
  funext y
  unfold iblk1
  rw [View.read_apply]
  show V c main_arg9 _ = V c main_arg9 y
  refine congrArg _ (funext fun a => Fin.ext ?_)
  match a with
  | ⟨0, _⟩ => show win1_2.index t (0 : Fin 2) * 128 + 1 * (y 0).val = (y 0).val; rw [e4]; omega
  | ⟨1, _⟩ => show win1_2.index t (1 : Fin 2) * 128 + 1 * (y 1).val = (y 1).val; rw [e5]; omega

/-- Weight window 3's one block is its whole array. -/
theorem iblk1_3_eq (c : Dev nD) (t : Fin cfg1.N) :
    (iblk1 V c 3 t : Vec Ideal S128x128 .f32) = (V c main_arg11 : S128x128.Idx → Ideal .f32) := by
  obtain ⟨-, -, -, -, -, -, e6, e7, -, -, -, -, -, -, -⟩ := idx1 t
  funext y
  unfold iblk1
  rw [View.read_apply]
  show V c main_arg11 _ = V c main_arg11 y
  refine congrArg _ (funext fun a => Fin.ext ?_)
  match a with
  | ⟨0, _⟩ => show win1_3.index t (0 : Fin 2) * 128 + 1 * (y 0).val = (y 0).val; rw [e6]; omega
  | ⟨1, _⟩ => show win1_3.index t (1 : Fin 2) * 128 + 1 * (y 1).val = (y 1).val; rw [e7]; omega

/-- Per-column window 4's one block is its whole vector. -/
theorem iblk1_4_eq (c : Dev nD) (t : Fin cfg1.N) :
    (iblk1 V c 4 t : Vec Ideal S128 .f32) = (V c main_arg10 : S128.Idx → Ideal .f32) := by
  obtain ⟨-, -, -, -, -, -, -, -, e8, -, -, -, -, -, -⟩ := idx1 t
  funext y
  unfold iblk1
  rw [View.read_apply]
  show V c main_arg10 _ = V c main_arg10 y
  refine congrArg _ (funext fun a => Fin.ext ?_)
  match a with
  | ⟨0, _⟩ => show win1_4.index t (0 : Fin 1) * 128 + 1 * (y 0).val = (y 0).val; rw [e8]; omega

/-- Per-column window 5's one block is its whole vector. -/
theorem iblk1_5_eq (c : Dev nD) (t : Fin cfg1.N) :
    (iblk1 V c 5 t : Vec Ideal S128 .f32) = (V c main_arg12 : S128.Idx → Ideal .f32) := by
  obtain ⟨-, -, -, -, -, -, -, -, -, e9, -, -, -, -, -⟩ := idx1 t
  funext y
  unfold iblk1
  rw [View.read_apply]
  show V c main_arg12 _ = V c main_arg12 y
  refine congrArg _ (funext fun a => Fin.ext ?_)
  match a with
  | ⟨0, _⟩ => show win1_5.index t (0 : Fin 1) * 128 + 1 * (y 0).val = (y 0).val; rw [e9]; omega

/-- Per-column window 6's one block is its whole vector. -/
theorem iblk1_6_eq (c : Dev nD) (t : Fin cfg1.N) :
    (iblk1 V c 6 t : Vec Ideal S128 .f32) = (V c main_arg13 : S128.Idx → Ideal .f32) := by
  obtain ⟨-, -, -, -, -, -, -, -, -, -, e10, -, -, -, -⟩ := idx1 t
  funext y
  unfold iblk1
  rw [View.read_apply]
  show V c main_arg13 _ = V c main_arg13 y
  refine congrArg _ (funext fun a => Fin.ext ?_)
  match a with
  | ⟨0, _⟩ => show win1_6.index t (0 : Fin 1) * 128 + 1 * (y 0).val = (y 0).val; rw [e10]; omega

/-- Per-column window 7's one block is its whole vector. -/
theorem iblk1_7_eq (c : Dev nD) (t : Fin cfg1.N) :
    (iblk1 V c 7 t : Vec Ideal S128 .f32) = (V c main_arg14 : S128.Idx → Ideal .f32) := by
  obtain ⟨-, -, -, -, -, -, -, -, -, -, -, e11, -, -, -⟩ := idx1 t
  funext y
  unfold iblk1
  rw [View.read_apply]
  show V c main_arg14 _ = V c main_arg14 y
  refine congrArg _ (funext fun a => Fin.ext ?_)
  match a with
  | ⟨0, _⟩ => show win1_7.index t (0 : Fin 1) * 128 + 1 * (y 0).val = (y 0).val; rw [e11]; omega

/-- Per-column window 8's one block is its whole vector. -/
theorem iblk1_8_eq (c : Dev nD) (t : Fin cfg1.N) :
    (iblk1 V c 8 t : Vec Ideal S128 .f32) = (V c main_arg15 : S128.Idx → Ideal .f32) := by
  obtain ⟨-, -, -, -, -, -, -, -, -, -, -, -, e12, -, -⟩ := idx1 t
  funext y
  unfold iblk1
  rw [View.read_apply]
  show V c main_arg15 _ = V c main_arg15 y
  refine congrArg _ (funext fun a => Fin.ext ?_)
  match a with
  | ⟨0, _⟩ => show win1_8.index t (0 : Fin 1) * 128 + 1 * (y 0).val = (y 0).val; rw [e12]; omega

/-- The layer of this region, as one function of the arrays the region finds. -/
abbrev layer1 (c : Dev nD) : S100000x128.Idx → Ideal .f32 :=
  normLayer (V c main_v35) (V c main_v23) (V c main_arg9) (V c main_arg11) (V c main_arg10) (V c main_arg12) (V c main_arg13) (V c main_arg14) (V c main_arg15)

/-- What point `t` writes back is block `t` of the layer of the region-entry arrays. -/
theorem flushed1 (c : Dev nD) (t : Fin cfg1.N) :
    (dat1 V c).flushed 9 t = ((cfg1.win 9).blk t).view.read (Elt Ideal) (layer1 V c) := by
  show (cfg1.win 9).cut (grid1.coords t) ((dat1 V c).after 9 t) = _
  rw [after1_9]
  unfold out1_9
  rw [View.canon_unit_zero zero_offsets2]
  simp only [View.ld_unit_zero (S := S2000x128) zero_offsets2, View.ld_unit_zero (S := S128x128) zero_offsets2, View.ld_unit_zero (S := S128) zero_offsets1]
  obtain ⟨-, -, -, -, -, -, -, -, -, -, -, -, -, e13, e14⟩ := idx1 t
  have ht := point_lt1 t
  funext j
  obtain ⟨p, q, rfl⟩ : ∃ (p : Fin 2000) (q : Fin 128), j = ix2 p q := ⟨j 0, j 1, eq_ix2 (n0 := 2000) (n1 := 128) j⟩
  have he : ((cfg1.win 9).blk t).view.emb (ix2 p q) = ix2 (⟨t.val * 2000 + p.val, by have := p.isLt; omega⟩ : Fin 100000) q := by
    funext a; apply Fin.ext
    match a with
    | ⟨0, _⟩ => show win1_9.index t (0 : Fin 2) * 2000 + 1 * p.val = t.val * 2000 + p.val; rw [e13]; omega
    | ⟨1, _⟩ => show win1_9.index t (1 : Fin 2) * 128 + 1 * q.val = q.val; rw [e14]; omega
  show k1_pay1 (iblk1 V c 0 t) (iblk1 V c 1 t) (iblk1 V c 2 t) (iblk1 V c 3 t) (iblk1 V c 4 t) (iblk1 V c 5 t) (iblk1 V c 6 t) (iblk1 V c 7 t) (iblk1 V c 8 t) (ix2 p q) = layer1 V c (((cfg1.win 9).blk t).view.emb (ix2 p q))
  rw [he]
  refine (pay1_apply (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
  exact normLin_congr q (fun k => iblk1_0_apply V c t p k _ rfl) (fun k => iblk1_1_apply V c t p k _ rfl)
    (iblk1_2_eq V c t) (iblk1_3_eq V c t) (iblk1_4_eq V c t) (iblk1_5_eq V c t) (iblk1_6_eq V c t) (iblk1_7_eq V c t) (iblk1_8_eq V c t)

/-- An index of the output array is in point `t`'s block iff each coordinate is in the block's range on its axis. -/
theorem mem_blk1 (t : Fin cfg1.N) (i : S100000x128.Idx) :
    i ∈ ((cfg1.win 9).blk t).view.set ↔ ∀ a : Fin 2, win1_9.index t a * S2000x128.size a ≤ (i a).val ∧ (i a).val < win1_9.index t a * S2000x128.size a + S2000x128.size a := by
  show i ∈ ((View.whole main_v36).slice (win1_9.rect t)).set ↔ _
  rw [View.set_slice_whole, Rect.mem_set_unit]
  exact Iff.rfl

/-- The output's row blocks tile its array: row `r` is in the block of point `r / 2000`. -/
theorem cover1 (i : S100000x128.Idx) :
    ∃ t : Fin cfg1.N, (cfg1.win 9).flush t = true ∧ i ∈ ((cfg1.win 9).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_9 _, ?_⟩
  rw [mem_blk1]
  obtain ⟨-, -, -, -, -, -, -, -, -, -, -, -, -, e13, e14⟩ := idx1 ⟨(i 0).val / 2000, by rw [hN]; omega⟩
  intro a
  match a with
  | ⟨0, _⟩ =>
    show win1_9.index _ (0 : Fin 2) * 2000 ≤ (i 0).val ∧ (i 0).val < win1_9.index _ (0 : Fin 2) * 2000 + 2000
    rw [e13]; show (i 0).val / 2000 * 2000 ≤ (i 0).val ∧ (i 0).val < (i 0).val / 2000 * 2000 + 2000; omega
  | ⟨1, _⟩ =>
    show win1_9.index _ (1 : Fin 2) * 128 ≤ (i 1).val ∧ (i 1).val < win1_9.index _ (1 : Fin 2) * 128 + 128
    rw [e14]; omega

/-- After the region its output array holds the layer of the arrays the region found, whatever they were. -/
theorem region1 (c : Dev nD) : (dat1 V c).arrAt 9 cfg1.N = layer1 V c :=
  (dat1 V c).arrAt_eq_of_cover 9 (layer1 V c) (fun t _ => flushed1 V c t) (cover1)

end Cert.KernelIdeal.Hand

end
-- ==== Proof.Region2.lean ====
/-
  Region 2 of the idealized kernel (the last, linear layer), at ANY contents `V` of the TensorCore's buffers
  when the region is entered. The region walks 50 row blocks of 2000 rows; at each point the body loads the mean
  block, the feature block, both weight matrices and the per-column vectors whole, and stores one block of the result.
  Written here: the stored value at an index of the block (`pay2_apply`), each window's block as rows of its array
  (`iblk2_*`), so what a point writes back is its block of ONE whole-array function (`flushed2`), the blocks tile the
  output (`cover2`), and therefore the output array after the region is that function (`region2`).
-/
import proofs.«181775_j34419867910942_1_alg».proof.Proof.FrameKernelIdealP
import proofs.«181775_j34419867910942_1_alg».proof.Proof.LibNodeLayer
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem
open Idealize.ShloMosaic.ValueIdx Idealize.ShloMosaic.NodeLayer
open Idealize.ShloMosaic.Pipeline (Dat)

variable (V : (c : Dev nD) → (b : Ref sig .tc) → Buf (Elt Ideal) ((c : Thread nD τ).loc b))

/-- The body's stored value at `(p, q)` of a row block: the layer's entry of the loaded blocks. -/
theorem pay2_apply (x0 x1 : Vec Ideal S2000x128 .f32) (x2 x3 : Vec Ideal S64x128 .f32) (x4 : Vec Ideal S64 .f32)
    (p : Fin 2000) (q : Fin 64) :
    k2_pay1 x0 x1 x2 x3 x4 (ix2 p q) = linAt x0 x1 x2 x3 x4 p q := by
  unfold k2_pay1
  simp only [shapeCast_self]
  exact lin_body_apply _ ⟨_, rfl⟩ x0 x1 x2 x3 x4 _ _ _ _ p q

/-- The printed index maps over the grid: the two activation windows and the output move one row block per point,
    every other window stays on its one block. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = t.val
    ∧ win2_5.index t (1 : Fin 2) = 0 :=
  (by decide +kernel : ∀ t : Fin grid2.N, _)

theorem point_lt2 (t : Fin cfg2.N) : t.val < 50 := lt_of_lt_of_eq t.isLt N_2

/-- Activation window 0's block at point `t` is rows `2000 t … 2000 t + 1999` of its array. -/
theorem iblk2_0_apply (c : Dev nD) (t : Fin cfg2.N) (p : Fin 2000) (k : Fin 128) (i : Fin 100000)
    (hi : i.val = t.val * 2000 + p.val) :
    (iblk2 V c 0 t : Vec Ideal S2000x128 .f32) (ix2 p k) = (V c main_v48 : S100000x128.Idx → Ideal .f32) (ix2 i k) := by
  obtain ⟨e0, e1, -, -, -, -, -, -, -, -, -⟩ := idx2 t
  unfold iblk2
  rw [View.read_apply]
  show V c main_v48 _ = V c main_v48 _
  refine congrArg _ (funext fun a => Fin.ext ?_)
  match a with
  | ⟨0, _⟩ => show win2_0.index t (0 : Fin 2) * 2000 + 1 * p.val = i.val; rw [e0, hi]; omega
  | ⟨1, _⟩ => show win2_0.index t (1 : Fin 2) * 128 + 1 * k.val = k.val; rw [e1]; omega

/-- Activation window 1's block at point `t` is rows `2000 t … 2000 t + 1999` of its array. -/
theorem iblk2_1_apply (c : Dev nD) (t : Fin cfg2.N) (p : Fin 2000) (k : Fin 128) (i : Fin 100000)
    (hi : i.val = t.val * 2000 + p.val) :
    (iblk2 V c 1 t : Vec Ideal S2000x128 .f32) (ix2 p k) = (V c main_v36 : S100000x128.Idx → Ideal .f32) (ix2 i k) := by
  obtain ⟨-, -, e2, e3, -, -, -, -, -, -, -⟩ := idx2 t
  unfold iblk2
  rw [View.read_apply]
  show V c main_v36 _ = V c main_v36 _
  refine congrArg _ (funext fun a => Fin.ext ?_)
  match a with
  | ⟨0, _⟩ => show win2_1.index t (0 : Fin 2) * 2000 + 1 * p.val = i.val; rw [e2, hi]; omega
  | ⟨1, _⟩ => show win2_1.index t (1 : Fin 2) * 128 + 1 * k.val = k.val; rw [e3]; omega

/-- Weight window 2's one block is its whole array. -/
theorem iblk2_2_eq (c : Dev nD) (t : Fin cfg2.N) :
    (iblk2 V c 2 t : Vec Ideal S64x128 .f32) = (V c main_arg16 : S64x128.Idx → Ideal .f32) := by
  obtain ⟨-, -, -, -, e4, e5, -, -, -, -, -⟩ := idx2 t
  funext y
  unfold iblk2
  rw [View.read_apply]
  show V c main_arg16 _ = V c main_arg16 y
  refine congrArg _ (funext fun a => Fin.ext ?_)
  match a with
  | ⟨0, _⟩ => show win2_2.index t (0 : Fin 2) * 64 + 1 * (y 0).val = (y 0).val; rw [e4]; omega
  | ⟨1, _⟩ => show win2_2.index t (1 : Fin 2) * 128 + 1 * (y 1).val = (y 1).val; rw [e5]; omega

/-- Weight window 3's one block is its whole array. -/
theorem iblk2_3_eq (c : Dev nD) (t : Fin cfg2.N) :
    (iblk2 V c 3 t : Vec Ideal S64x128 .f32) = (V c main_arg18 : S64x128.Idx → Ideal .f32) := by
  obtain ⟨-, -, -, -, -, -, e6, e7, -, -, -⟩ := idx2 t
  funext y
  unfold iblk2
  rw [View.read_apply]
  show V c main_arg18 _ = V c main_arg18 y
  refine congrArg _ (funext fun a => Fin.ext ?_)
  match a with
  | ⟨0, _⟩ => show win2_3.index t (0 : Fin 2) * 64 + 1 * (y 0).val = (y 0).val; rw [e6]; omega
  | ⟨1, _⟩ => show win2_3.index t (1 : Fin 2) * 128 + 1 * (y 1).val = (y 1).val; rw [e7]; omega

/-- Per-column window 4's one block is its whole vector. -/
theorem iblk2_4_eq (c : Dev nD) (t : Fin cfg2.N) :
    (iblk2 V c 4 t : Vec Ideal S64 .f32) = (V c main_arg17 : S64.Idx → Ideal .f32) := by
  obtain ⟨-, -, -, -, -, -, -, -, e8, -, -⟩ := idx2 t
  funext y
  unfold iblk2
  rw [View.read_apply]
  show V c main_arg17 _ = V c main_arg17 y
  refine congrArg _ (funext fun a => Fin.ext ?_)
  match a with
  | ⟨0, _⟩ => show win2_4.index t (0 : Fin 1) * 64 + 1 * (y 0).val = (y 0).val; rw [e8]; omega

/-- The layer of this region, as one function of the arrays the region finds. -/
abbrev layer2 (c : Dev nD) : S100000x64.Idx → Ideal .f32 :=
  linLayer (V c main_v48) (V c main_v36) (V c main_arg16) (V c main_arg18) (V c main_arg17)

/-- What point `t` writes back is block `t` of the layer of the region-entry arrays. -/
theorem flushed2 (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero zero_offsets2]
  simp only [View.ld_unit_zero (S := S2000x128) zero_offsets2, View.ld_unit_zero (S := S64x128) zero_offsets2, View.ld_unit_zero (S := S64) zero_offsets1]
  obtain ⟨-, -, -, -, -, -, -, -, -, e9, e10⟩ := idx2 t
  have ht := point_lt2 t
  funext j
  obtain ⟨p, q, rfl⟩ : ∃ (p : Fin 2000) (q : Fin 64), j = ix2 p q := ⟨j 0, j 1, eq_ix2 (n0 := 2000) (n1 := 64) j⟩
  have he : ((cfg2.win 5).blk t).view.emb (ix2 p q) = ix2 (⟨t.val * 2000 + p.val, by have := p.isLt; omega⟩ : Fin 100000) q := by
    funext a; apply Fin.ext
    match a with
    | ⟨0, _⟩ => show win2_5.index t (0 : Fin 2) * 2000 + 1 * p.val = t.val * 2000 + p.val; rw [e9]; omega
    | ⟨1, _⟩ => show win2_5.index t (1 : Fin 2) * 64 + 1 * q.val = q.val; rw [e10]; omega
  show k2_pay1 (iblk2 V c 0 t) (iblk2 V c 1 t) (iblk2 V c 2 t) (iblk2 V c 3 t) (iblk2 V c 4 t) (ix2 p q) = layer2 V c (((cfg2.win 5).blk t).view.emb (ix2 p q))
  rw [he]
  refine (pay2_apply (iblk2 V c 0 t) (iblk2 V c 1 t) (iblk2 V c 2 t) (iblk2 V c 3 t) (iblk2 V c 4 t) p q).trans ?_
  exact lin_congr q (fun k => iblk2_0_apply V c t p k _ rfl) (fun k => iblk2_1_apply V c t p k _ rfl)
    (iblk2_2_eq V c t) (iblk2_3_eq V c t) (iblk2_4_eq V c t)

/-- An index of the output array is in point `t`'s block iff each coordinate is in the block's range on its axis. -/
theorem mem_blk2 (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v49).slice (win2_5.rect t)).set ↔ _
  rw [View.set_slice_whole, Rect.mem_set_unit]
  exact Iff.rfl

/-- The output's row blocks tile its array: row `r` is in the block of point `r / 2000`. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 50 := N_2
  refine ⟨⟨(i 0).val / 2000, by rw [hN]; omega⟩, flush2_5 _, ?_⟩
  rw [mem_blk2]
  obtain ⟨-, -, -, -, -, -, -, -, -, e9, e10⟩ := idx2 ⟨(i 0).val / 2000, by rw [hN]; omega⟩
  intro a
  match a with
  | ⟨0, _⟩ =>
    show win2_5.index _ (0 : Fin 2) * 2000 ≤ (i 0).val ∧ (i 0).val < win2_5.index _ (0 : Fin 2) * 2000 + 2000
    rw [e9]; show (i 0).val / 2000 * 2000 ≤ (i 0).val ∧ (i 0).val < (i 0).val / 2000 * 2000 + 2000; omega
  | ⟨1, _⟩ =>
    show win2_5.index _ (1 : Fin 2) * 64 ≤ (i 1).val ∧ (i 1).val < win2_5.index _ (1 : Fin 2) * 64 + 64
    rw [e10]; omega

/-- After the region its output array holds the layer of the arrays the region found, whatever they were. -/
theorem region2 (c : Dev nD) : (dat2 V c).arrAt 5 cfg2.N = layer2 V c :=
  (dat2 V c).arrAt_eq_of_cover 5 (layer2 V c) (fun t _ => flushed2 V c t) (cover2)

end Cert.KernelIdeal.Hand

end
-- ==== Proof.KernelValue.lean ====
/-
  The idealized kernel's result as the three-layer network of its arguments. The buffer contents are followed through
  @main's six segments: the host stretch before each region leaves that region's mean array at the neighbourhood mean of
  the features the previous region left (the stretch's operations are, literally, the reference's first-stage
  operations, so the two are one term), a region leaves its output array at the layer of the arrays it found
  (`region0`, `region1`, `region2`), and nothing else a later segment reads is written in between. Composed, the
  result buffer after the last region holds `net` of the argument arrays.
-/
import proofs.«181775_j34419867910942_1_alg».proof.Proof.KernelRun
import proofs.«181775_j34419867910942_1_alg».proof.Proof.Region0
import proofs.«181775_j34419867910942_1_alg».proof.Proof.Region1
import proofs.«181775_j34419867910942_1_alg».proof.Proof.Region2
import proofs.«181775_j34419867910942_1_alg».proof.Proof.RefLayers
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx Idealize.ShloMosaic.NodeLayer
open Cert.ReferenceIdeal.RefValue (mean normStage linStage net)

variable (m : (ℓ : Loc nD τ sig) → Buf (Elt Ideal) ℓ) (ρ : Dev nD → PrngReg)

/-! ## The first host stretch: edge endpoints, clamped in-degree, the first mean -/

/-- The source column of the edge list after the first stretch. -/
theorem W1_src (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl

/-- The target column. -/
theorem W1_dst (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

/-- The in-degree clamped below at one, as a column. -/
theorem W1_deg (c : Dev nD) : W1 m ρ c (Proc.devRef .tc main_v10) = Cert.ReferenceIdeal.Read.val_main_v20 (F := Ideal) (m ((c : Thread nD τ).loc main_arg1)) := by
  show StableHlo.after hostOps0 (W0 m ρ c) (Proc.devRef .tc main_v10) = _
  after_results
  rfl

/-- Region 0's mean array: the neighbourhood mean of the input features. -/
theorem V1_mean (c : Dev nD) : V1 m ρ c main_v22 = mean (m ((c : Thread nD τ).loc main_arg0)) (m ((c : Thread nD τ).loc main_arg1)) := by
  show StableHlo.after hostOps0 (W0 m ρ c) (Proc.devRef .tc main_v22) = _
  after_results_simp
  rfl

theorem V1_arg0 (c : Dev nD) : V1 m ρ c main_arg0 = (m ((c : Thread nD τ).loc main_arg0)) := by
  show StableHlo.after hostOps0 (W0 m ρ c) (Proc.devRef .tc main_arg0) = _
  after_results

theorem V1_arg2 (c : Dev nD) : V1 m ρ c main_arg2 = (m ((c : Thread nD τ).loc main_arg2)) := by
  show StableHlo.after hostOps0 (W0 m ρ c) (Proc.devRef .tc main_arg2) = _
  after_results

theorem V1_arg3 (c : Dev nD) : V1 m ρ c main_arg3 = (m ((c : Thread nD τ).loc main_arg3)) := by
  show StableHlo.after hostOps0 (W0 m ρ c) (Proc.devRef .tc main_arg3) = _
  after_results

theorem V1_arg4 (c : Dev nD) : V1 m ρ c main_arg4 = (m ((c : Thread nD τ).loc main_arg4)) := by
  show StableHlo.after hostOps0 (W0 m ρ c) (Proc.devRef .tc main_arg4) = _
  after_results

theorem V1_arg5 (c : Dev nD) : V1 m ρ c main_arg5 = (m ((c : Thread nD τ).loc main_arg5)) := by
  show StableHlo.after hostOps0 (W0 m ρ c) (Proc.devRef .tc main_arg5) = _
  after_results

theorem V1_arg6 (c : Dev nD) : V1 m ρ c main_arg6 = (m ((c : Thread nD τ).loc main_arg6)) := by
  show StableHlo.after hostOps0 (W0 m ρ c) (Proc.devRef .tc main_arg6) = _
  after_results

theorem V1_arg7 (c : Dev nD) : V1 m ρ c main_arg7 = (m ((c : Thread nD τ).loc main_arg7)) := by
  show StableHlo.after hostOps0 (W0 m ρ c) (Proc.devRef .tc main_arg7) = _
  after_results

theorem V1_arg8 (c : Dev nD) : V1 m ρ c main_arg8 = (m ((c : Thread nD τ).loc main_arg8)) := by
  show StableHlo.after hostOps0 (W0 m ρ c) (Proc.devRef .tc main_arg8) = _
  after_results

/-- The first hidden array. -/
abbrev hid1 (c : Dev nD) : Cert.ReferenceIdeal.RefValue.CF Cert.ReferenceIdeal.S100000x128 :=
  normStage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- After region 0 its output array holds the first hidden array. -/
theorem W2_out (c : Dev nD) : W2 m ρ c (Proc.devRef .tc main_v23) = hid1 m c := by
  refine (W2_arr m ρ c 9).trans ((region0 (V1 m ρ) c).trans ?_)
  unfold layer0
  rw [V1_mean m ρ c, V1_arg0 m ρ c, V1_arg2 m ρ c, V1_arg3 m ρ c, V1_arg4 m ρ c, V1_arg5 m ρ c, V1_arg6 m ρ c, V1_arg7 m ρ c, V1_arg8 m ρ c]
  rfl

/-! ## Region 0 writes only its output: the edge columns and the degree column pass through -/

theorem W2_src (c : Dev nD) : W2 m ρ c (Proc.devRef .tc main_v1) = Cert.ReferenceIdeal.Read.val_main_v1 (F := Ideal) (m ((c : Thread nD τ).loc main_arg1)) :=
  (W2_of_ne m ρ c main_v1 (by decide)).trans (W1_src m ρ c)
theorem W2_dst (c : Dev nD) : W2 m ρ c (Proc.devRef .tc main_v3) = Cert.ReferenceIdeal.Read.val_main_v3 (F := Ideal) (m ((c : Thread nD τ).loc main_arg1)) :=
  (W2_of_ne m ρ c main_v3 (by decide)).trans (W1_dst m ρ c)
theorem W2_deg (c : Dev nD) : W2 m ρ c (Proc.devRef .tc main_v10) = Cert.ReferenceIdeal.Read.val_main_v20 (F := Ideal) (m ((c : Thread nD τ).loc main_arg1)) :=
  (W2_of_ne m ρ c main_v10 (by decide)).trans (W1_deg m ρ c)

theorem W2_arg9 (c : Dev nD) : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results

theorem W2_arg10 (c : Dev nD) : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results

theorem W2_arg11 (c : Dev nD) : W2 m ρ c (Proc.devRef .tc main_arg11) = (m ((c : Thread nD τ).loc main_arg11)) := by
  refine (W2_of_ne m ρ c main_arg11 (by decide)).trans ?_
  show StableHlo.after hostOps0 (W0 m ρ c) (Proc.devRef .tc main_arg11) = _
  after_results

theorem W2_arg12 (c : Dev nD) : W2 m ρ c (Proc.devRef .tc main_arg12) = (m ((c : Thread nD τ).loc main_arg12)) := by
  refine (W2_of_ne m ρ c main_arg12 (by decide)).trans ?_
  show StableHlo.after hostOps0 (W0 m ρ c) (Proc.devRef .tc main_arg12) = _
  after_results

theorem W2_arg13 (c : Dev nD) : W2 m ρ c (Proc.devRef .tc main_arg13) = (m ((c : Thread nD τ).loc main_arg13)) := by
  refine (W2_of_ne m ρ c main_arg13 (by decide)).trans ?_
  show StableHlo.after hostOps0 (W0 m ρ c) (Proc.devRef .tc main_arg13) = _
  after_results

theorem W2_arg14 (c : Dev nD) : W2 m ρ c (Proc.devRef .tc main_arg14) = (m ((c : Thread nD τ).loc main_arg14)) := by
  refine (W2_of_ne m ρ c main_arg14 (by decide)).trans ?_
  show StableHlo.after hostOps0 (W0 m ρ c) (Proc.devRef .tc main_arg14) = _
  after_results

theorem W2_arg15 (c : Dev nD) : W2 m ρ c (Proc.devRef .tc main_arg15) = (m ((c : Thread nD τ).loc main_arg15)) := by
  refine (W2_of_ne m ρ c main_arg15 (by decide)).trans ?_
  show StableHlo.after hostOps0 (W0 m ρ c) (Proc.devRef .tc main_arg15) = _
  after_results

theorem W2_arg16 (c : Dev nD) : W2 m ρ c (Proc.devRef .tc main_arg16) = (m ((c : Thread nD τ).loc main_arg16)) := by
  refine (W2_of_ne m ρ c main_arg16 (by decide)).trans ?_
  show StableHlo.after hostOps0 (W0 m ρ c) (Proc.devRef .tc main_arg16) = _
  after_results

theorem W2_arg17 (c : Dev nD) : W2 m ρ c (Proc.devRef .tc main_arg17) = (m ((c : Thread nD τ).loc main_arg17)) := by
  refine (W2_of_ne m ρ c main_arg17 (by decide)).trans ?_
  show StableHlo.after hostOps0 (W0 m ρ c) (Proc.devRef .tc main_arg17) = _
  after_results

theorem W2_arg18 (c : Dev nD) : W2 m ρ c (Proc.devRef .tc main_arg18) = (m ((c : Thread nD τ).loc main_arg18)) := by
  refine (W2_of_ne m ρ c main_arg18 (by decide)).trans ?_
  show StableHlo.after hostOps0 (W0 m ρ c) (Proc.devRef .tc main_arg18) = _
  after_results

/-! ## The second host stretch and region 1 -/

/-- Region 1's mean array: the neighbourhood mean of the first hidden array. -/
theorem V3_mean (c : Dev nD) : V3 m ρ c main_v35 = mean (hid1 m c) (m ((c : Thread nD τ).loc main_arg1)) := by
  show StableHlo.after hostOps1 (W2 m ρ c) (Proc.devRef .tc main_v35) = _
  after_results_simp
  rw [W2_src m ρ c, W2_dst m ρ c, W2_deg m ρ c, W2_out m ρ c]
  rfl

theorem V3_hid (c : Dev nD) : V3 m ρ c main_v23 = hid1 m c := by
  show StableHlo.after hostOps1 (W2 m ρ c) (Proc.devRef .tc main_v23) = _
  after_results
  exact W2_out m ρ c

theorem V3_arg9 (c : Dev nD) : V3 m ρ c main_arg9 = (m ((c : Thread nD τ).loc main_arg9)) := by
  show StableHlo.after hostOps1 (W2 m ρ c) (Proc.devRef .tc main_arg9) = _
  after_results
  exact W2_arg9 m ρ c

theorem V3_arg10 (c : Dev nD) : V3 m ρ c main_arg10 = (m ((c : Thread nD τ).loc main_arg10)) := by
  show StableHlo.after hostOps1 (W2 m ρ c) (Proc.devRef .tc main_arg10) = _
  after_results
  exact W2_arg10 m ρ c

theorem V3_arg11 (c : Dev nD) : V3 m ρ c main_arg11 = (m ((c : Thread nD τ).loc main_arg11)) := by
  show StableHlo.after hostOps1 (W2 m ρ c) (Proc.devRef .tc main_arg11) = _
  after_results
  exact W2_arg11 m ρ c

theorem V3_arg12 (c : Dev nD) : V3 m ρ c main_arg12 = (m ((c : Thread nD τ).loc main_arg12)) := by
  show StableHlo.after hostOps1 (W2 m ρ c) (Proc.devRef .tc main_arg12) = _
  after_results
  exact W2_arg12 m ρ c

theorem V3_arg13 (c : Dev nD) : V3 m ρ c main_arg13 = (m ((c : Thread nD τ).loc main_arg13)) := by
  show StableHlo.after hostOps1 (W2 m ρ c) (Proc.devRef .tc main_arg13) = _
  after_results
  exact W2_arg13 m ρ c

theorem V3_arg14 (c : Dev nD) : V3 m ρ c main_arg14 = (m ((c : Thread nD τ).loc main_arg14)) := by
  show StableHlo.after hostOps1 (W2 m ρ c) (Proc.devRef .tc main_arg14) = _
  after_results
  exact W2_arg14 m ρ c

theorem V3_arg15 (c : Dev nD) : V3 m ρ c main_arg15 = (m ((c : Thread nD τ).loc main_arg15)) := by
  show StableHlo.after hostOps1 (W2 m ρ c) (Proc.devRef .tc main_arg15) = _
  after_results
  exact W2_arg15 m ρ c

/-- The second hidden array. -/
abbrev hid2 (c : Dev nD) : Cert.ReferenceIdeal.RefValue.CF Cert.ReferenceIdeal.S100000x128 :=
  normStage (hid1 m c) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- After region 1 its output array holds the second hidden array. -/
theorem W4_out (c : Dev nD) : W4 m ρ c (Proc.devRef .tc main_v36) = hid2 m c := by
  refine (W4_arr m ρ c 9).trans ((region1 (V3 m ρ) c).trans ?_)
  unfold layer1
  rw [V3_mean m ρ c, V3_hid m ρ c, V3_arg9 m ρ c, V3_arg10 m ρ c, V3_arg11 m ρ c, V3_arg12 m ρ c, V3_arg13 m ρ c, V3_arg14 m ρ c, V3_arg15 m ρ c]
  rfl

theorem W4_src (c : Dev nD) : W4 m ρ c (Proc.devRef .tc main_v1) = Cert.ReferenceIdeal.Read.val_main_v1 (F := Ideal) (m ((c : Thread nD τ).loc main_arg1)) := by
  refine (W4_of_ne m ρ c main_v1 (by decide)).trans ?_
  show StableHlo.after hostOps1 (W2 m ρ c) (Proc.devRef .tc main_v1) = _
  after_results
  exact W2_src m ρ c

theorem W4_dst (c : Dev nD) : W4 m ρ c (Proc.devRef .tc main_v3) = Cert.ReferenceIdeal.Read.val_main_v3 (F := Ideal) (m ((c : Thread nD τ).loc main_arg1)) := by
  refine (W4_of_ne m ρ c main_v3 (by decide)).trans ?_
  show StableHlo.after hostOps1 (W2 m ρ c) (Proc.devRef .tc main_v3) = _
  after_results
  exact W2_dst m ρ c

theorem W4_deg (c : Dev nD) : W4 m ρ c (Proc.devRef .tc main_v10) = Cert.ReferenceIdeal.Read.val_main_v20 (F := Ideal) (m ((c : Thread nD τ).loc main_arg1)) := by
  refine (W4_of_ne m ρ c main_v10 (by decide)).trans ?_
  show StableHlo.after hostOps1 (W2 m ρ c) (Proc.devRef .tc main_v10) = _
  after_results
  exact W2_deg m ρ c

theorem W4_arg16 (c : Dev nD) : W4 m ρ c (Proc.devRef .tc main_arg16) = (m ((c : Thread nD τ).loc main_arg16)) := by
  refine (W4_of_ne m ρ c main_arg16 (by decide)).trans ?_
  show StableHlo.after hostOps1 (W2 m ρ c) (Proc.devRef .tc main_arg16) = _
  after_results
  exact W2_arg16 m ρ c

theorem W4_arg17 (c : Dev nD) : W4 m ρ c (Proc.devRef .tc main_arg17) = (m ((c : Thread nD τ).loc main_arg17)) := by
  refine (W4_of_ne m ρ c main_arg17 (by decide)).trans ?_
  show StableHlo.after hostOps1 (W2 m ρ c) (Proc.devRef .tc main_arg17) = _
  after_results
  exact W2_arg17 m ρ c

theorem W4_arg18 (c : Dev nD) : W4 m ρ c (Proc.devRef .tc main_arg18) = (m ((c : Thread nD τ).loc main_arg18)) := by
  refine (W4_of_ne m ρ c main_arg18 (by decide)).trans ?_
  show StableHlo.after hostOps1 (W2 m ρ c) (Proc.devRef .tc main_arg18) = _
  after_results
  exact W2_arg18 m ρ c

/-! ## The third host stretch and region 2 -/

/-- Region 2's mean array: the neighbourhood mean of the second hidden array. -/
theorem V5_mean (c : Dev nD) : V5 m ρ c main_v48 = mean (hid2 m c) (m ((c : Thread nD τ).loc main_arg1)) := by
  show StableHlo.after hostOps2 (W4 m ρ c) (Proc.devRef .tc main_v48) = _
  after_results_simp
  rw [W4_src m ρ c, W4_dst m ρ c, W4_deg m ρ c, W4_out m ρ c]
  rfl

theorem V5_hid (c : Dev nD) : V5 m ρ c main_v36 = hid2 m c := by
  show StableHlo.after hostOps2 (W4 m ρ c) (Proc.devRef .tc main_v36) = _
  after_results
  exact W4_out m ρ c

theorem V5_arg16 (c : Dev nD) : V5 m ρ c main_arg16 = (m ((c : Thread nD τ).loc main_arg16)) := by
  show StableHlo.after hostOps2 (W4 m ρ c) (Proc.devRef .tc main_arg16) = _
  after_results
  exact W4_arg16 m ρ c

theorem V5_arg17 (c : Dev nD) : V5 m ρ c main_arg17 = (m ((c : Thread nD τ).loc main_arg17)) := by
  show StableHlo.after hostOps2 (W4 m ρ c) (Proc.devRef .tc main_arg17) = _
  after_results
  exact W4_arg17 m ρ c

theorem V5_arg18 (c : Dev nD) : V5 m ρ c main_arg18 = (m ((c : Thread nD τ).loc main_arg18)) := by
  show StableHlo.after hostOps2 (W4 m ρ c) (Proc.devRef .tc main_arg18) = _
  after_results
  exact W4_arg18 m ρ c

/-- After region 2 the result array holds the network of the argument arrays. -/
theorem W6_out (c : Dev nD) : W6 m ρ c (Proc.devRef .tc main_v49) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W6_arr m ρ c 5).trans ((region2 (V5 m ρ) c).trans ?_)
  unfold layer2
  rw [V5_mean m ρ c, V5_hid m ρ c, V5_arg16 m ρ c, V5_arg17 m ρ c, V5_arg18 m ρ c]
  rfl

/-- THE KERNEL'S RUN, READ: every weakly fair execution terminates, nothing faulting, with the result array at the
    network of the argument arrays and every argument array as launched. -/
theorem run : θ_run defs (onTc (τ := τ) (main (F := Ideal))) ⟨m, fun _ => 0, ρ⟩ (fun r => ∀ c : Dev nD,
      r.2.mem ((c.tc : Thread nD τ).loc main_v49) = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (W6_out m ρ c), (h c).2⟩) (run_result m ρ)

end Cert.KernelIdeal.Hand

end
-- ==== Proof.lean ====
/-
  The certificate of a three-layer GraphSAGE forward pass. Each layer forms every node's neighbourhood mean on the host
  (gather the source rows of the edges, add them into the target rows, divide by the in-degree clamped below at one) and
  then computes, per row block of 2000 nodes in a pipelined kernel, `mean · wlᵀ + h · wrᵀ + b`; the first two layers go
  on to the per-column normalisation `(z − μ) · (γ · (σ² + ε)^(−1/2)) + β` and the clamp at zero. The reference computes
  the same network with whole-array host operations, adding the bias before the second product.

  At the ideal values both programs compute ONE function `net` of the nineteen argument arrays: the neighbourhood mean is
  literally the same host term in both; a narrowing to bf16 is the identity; a product into the zero accumulator and a
  `dot_general` are the same sum; and `(a + b) + c = (a + c) + b` holds for all extended reals, so no finiteness of the
  inputs is used. The three frames are the generated ones (the reference's is its generated run with the result dropped; the two
  kernel programs' are read from copies of the generated frame modules that import a repaired launch module),
  and the ideal pass rewrote nothing, so the kernel's idealization is its own text.
-/
import proofs.«181775_j34419867910942_1_alg».proof.Defs
import proofs.«181775_j34419867910942_1_alg».proof.Proof.Gen.Kernel
import proofs.«181775_j34419867910942_1_alg».proof.Proof.Gen.Kernel.Skeleton
import proofs.«181775_j34419867910942_1_alg».proof.Proof.LaunchKernelP
import proofs.«181775_j34419867910942_1_alg».proof.Proof.Gen.Kernel.Points
import proofs.«181775_j34419867910942_1_alg».proof.Proof.FrameKernelP
import proofs.«181775_j34419867910942_1_alg».proof.Proof.Gen.KernelIdeal
import proofs.«181775_j34419867910942_1_alg».proof.Proof.Gen.KernelIdeal.Skeleton
import proofs.«181775_j34419867910942_1_alg».proof.Proof.LaunchKernelIdealP
import proofs.«181775_j34419867910942_1_alg».proof.Proof.Gen.KernelIdeal.Points
import proofs.«181775_j34419867910942_1_alg».proof.Proof.FrameKernelIdealP
import proofs.«181775_j34419867910942_1_alg».proof.Proof.Gen.ReferenceIdeal
import proofs.«181775_j34419867910942_1_alg».proof.Proof.Gen.Pre_finite_inputs
import proofs.«181775_j34419867910942_1_alg».proof.Proof.Gen.ReferenceIdeal.Run
import proofs.«181775_j34419867910942_1_alg».proof.Proof.Gen.ReferenceIdeal.Read
import proofs.«181775_j34419867910942_1_alg».proof.Proof.RefLayers
import proofs.«181775_j34419867910942_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference has no kernel: its frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the ideal values the kernel's result array ends at the network of its arguments (the kernel's run, read) and
    the reference's at the same network of arguments that agree with them (its generated run, read layer by layer). -/
theorem algebraic : Cert.algebraic_KernelIdeal_ReferenceIdeal := by
  intro m ρ m' ρ' _ hagree
  refine ⟨fun c => Cert.ReferenceIdeal.RefValue.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v112_eq, Cert.ReferenceIdeal.RefValue.result]
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
